-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S10000x128 .f32 .bf16
  ∧ IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : FVec F S10000x10000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S10000x10000 .f32 := broadcastInDim S10000x10000 ![] bcast_S_S10000x10000 main_cst_6
  let main_v20 : IVec S10000x10000 1 := cmpf .oeq main_arg1 main_v19
  let main_cst_7 : FVec F S_ .f32 := constant S_ .f32 0x3F800000#32
  let main_v21 : FVec F S10000x10000 .f32 := broadcastInDim S10000x10000 ![] bcast_S_S10000x10000 main_cst_7
  let main_v22 : IVec S10000x10000 1 := cmpf .oeq main_arg1 main_v21
  let main_v23 : IVec S10000x10000 1 := ori main_v20 main_v22
  let main_c_8 : IVec S_ 1 := constantI S_ 1 1#1
  let main_v24 : IVec S_ 1 := (fun x v => Host.reduce IntOp.andi x v reducesTo_S10000x10000_S_d0_1 h_S_) main_v23 main_c_8
  let main_v25 : IVec S_ 1 := andi main_v18 main_v24
  main_v25

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S10000x640 : Shape := ⟨2, ![10000, 640]⟩
abbrev S200x640 : Shape := ⟨2, ![200, 640]⟩
abbrev S200 : Shape := ⟨1, ![200]⟩
abbrev S200x1 : Shape := ⟨2, ![200, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S1x128, .f32⟩
  | .local _ .vmem, ⟨5, _⟩ => ⟨S200x128, .f32⟩
  | .local _ .vmem, ⟨6, _⟩ => ⟨S200x128, .f32⟩
  | .local _ .vmem, ⟨7, _⟩ => ⟨S10000x640, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v7 : BitVec 32 := Scalar.muli arg0 c200_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S10000x640_S10000x128_0_0 : ∀ a, (![0, 0] : Fin 2 → Nat) a + S10000x128.size a ≤ S10000x640.size a
  shapeCasts_S10000x128_S10000x128 : S10000x128.ShapeCasts S10000x128
  packedbf16_S10000x640_S10000x128_0_0 : (Rect.unit (s := S10000x640) ![0, 0] S10000x128.size inb_S10000x640_S10000x128_0_0).PackedRows (EltTy.packing .bf16)
  inb_S10000x640_S10000x128_0_128 : ∀ a, (![0, 128] : Fin 2 → Nat) a + S10000x128.size a ≤ S10000x640.size a
  packedbf16_S10000x640_S10000x128_0_128 : (Rect.unit (s := S10000x640) ![0, 128] S10000x128.size inb_S10000x640_S10000x128_0_128).PackedRows (EltTy.packing .bf16)
  inb_S10000x640_S10000x128_0_256 : ∀ a, (![0, 256] : Fin 2 → Nat) a + S10000x128.size a ≤ S10000x640.size a
  packedbf16_S10000x640_S10000x128_0_256 : (Rect.unit (s := S10000x640) ![0, 256] S10000x128.size inb_S10000x640_S10000x128_0_256).PackedRows (EltTy.packing .bf16)
  inb_S10000x640_S10000x128_0_384 : ∀ a, (![0, 384] : Fin 2 → Nat) a + S10000x128.size a ≤ S10000x640.size a
  packedbf16_S10000x640_S10000x128_0_384 : (Rect.unit (s := S10000x640) ![0, 384] S10000x128.size inb_S10000x640_S10000x128_0_384).PackedRows (EltTy.packing .bf16)
  iota_S10000x128_d1_w32 : S10000x128.Iotas .tc 32 [1]
  inb_S10000x640_S10000x128_0_512 : ∀ a, (![0, 512] : Fin 2 → Nat) a + S10000x128.size a ≤ S10000x640.size a
  packedbf16_S10000x640_S10000x128_0_512 : (Rect.unit (s := S10000x640) ![0, 512] S10000x128.size inb_S10000x640_S10000x128_0_512).PackedRows (EltTy.packing .bf16)
  inb_S200x10000_S200x10000_0_0 : ∀ a, (![0, 0] : Fin 2 → Nat) a + S200x10000.size a ≤ S200x10000.size a
  h_S200x10000 : 0 < S200x10000.numel
  inb_S10000x640_S10000x640_0_0 : ∀ a, (![0, 0] : Fin 2 → Nat) a + S10000x640.size a ≤ S10000x640.size a
  h_S10000x640 : 0 < S10000x640.numel
  h_S200x640 : 0 < S200x640.numel
  slices_S200x640_o0_0_S200x128 : S200x640.Slices ![0, 0] S200x128
  slices_S200x640_o0_256_S200x128 : S200x640.Slices ![0, 256] S200x128
  slices_S200x640_o0_128_S200x128 : S200x640.Slices ![0, 128] S200x128
  slices_S200x640_o0_384_S200x128 : S200x640.Slices ![0, 384] S200x128
  iota_S200x10000_d0_w32 : S200x10000.Iotas .tc 32 [0]
  iota_S200x10000_d1_w32 : S200x10000.Iotas .tc 32 [1]
  reduces_S200x10000_S200 : S200x10000.Reduces [1] S200
  shapeCasts_S200_S200x1 : S200.ShapeCasts S200x1
  slices_S200x640_o0_512_S200x1 : S200x640.Slices ![0, 512] S200x1
  broadcasts_S200x1_S200x128 : S200x1.Broadcasts S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x640_S200x640_1_0_0_1_n_n_wf : DotDims.WF S200x10000 S10000x640 S200x640 [1] [0] [0] [1] [] []
  hrank0 : 0 < grid0.rank
  k0_off1_inb : ∀ i : grid0.Coords, ∀ a, (k0_off1 i) a + S200x640.size a ≤ S10000x640.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x640_S200x640_1_0_0_1_n_n : DotDims S200x10000 S10000x640 S200x640 where
  lhsContracting := [1]
  rhsContracting := [0]
  lhsNonContracting := [0]
  rhsNonContracting := [1]
  lhsBatch := []
  rhsBatch := []
  wf := dot_S200x10000_S10000x640_S200x640_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000 : Shape := ⟨1, ![10000]⟩
abbrev S_ : Shape := ⟨0, ![]⟩
abbrev S10000x1 : Shape := ⟨2, ![10000, 1]⟩
abbrev S10000x2 : Shape := ⟨2, ![10000, 2]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000, .i32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S10000x1, .i32⟩
  | .hbm, ⟨22, _⟩ => ⟨S10000x2, .i32⟩
  | .hbm, ⟨23, _⟩ => ⟨S_, .f32⟩
  | .hbm, ⟨24, _⟩ => ⟨S10000, .f32⟩
  | .hbm, ⟨25, _⟩ => ⟨S10000x10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .i1⟩
  | .hbm, ⟨36, _⟩ => ⟨S_, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S_, .f32⟩
  | .hbm, ⟨44, _⟩ => ⟨S_, .f32⟩
  | .hbm, ⟨45, _⟩ => ⟨S10000, .f32⟩
  | .hbm, ⟨46, _⟩ => ⟨S10000, .f32⟩
  | .hbm, ⟨47, _⟩ => ⟨S10000x128, .f32⟩
  | .hbm, ⟨48, _⟩ => ⟨S10000x128, .f32⟩
  | .hbm, ⟨49, _⟩ => ⟨S10000x10000, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S10000x1, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  reducesTo_S10000x10000_S10000_d1 : S10000x10000.ReducesTo [1] S10000
  h_S_ : 0 < S_.numel
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  scatter_S10000x10000_S10000x2_S10000_n_01_01_1_wf : ScatterDims.WF S10000x10000 S10000x2 S10000 [] [0, 1] [0, 1] 1
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PoolSpec.lean ====
/-
  A bilinear neighbourhood pooling layer with self loops, as two functions of the argument arrays.

  Inputs: node features `x` (10000 × 128), a dense adjacency `E` (10000 × 10000), a weight `w` (128 × 128) and a bias
  `b` (128).  Write `P = x · w` for the projected features and `A = E + I` for the adjacency with self loops.  For
  node `i` and channel `c` the layer returns

      r(i) · ( (∑ⱼ A(i,j) P(j,c))² − ∑ⱼ A(i,j)² P(j,c)² ) + b(c),     r(i) = 1 / ((∑ⱼ A(i,j))² − ∑ⱼ A(i,j)²)  (0 when that is 0).

  `viaLoops` spells this out literally over `A`.  `viaSplit` is the same quantity computed without ever forming `A`:
  the self loop is added analytically (row `i` of `P` for the first sum, `(2 E(i,i) + 1) · P(i,c)²` for the second,
  `+1` and `+(2 E(i,i) + 1)` for the two row sums), the squares `E(i,j)²` are replaced by `E(i,j)`, and each of `P`
  and `P²` enters as a leading part plus a remainder `P − P` that vanishes on real numbers.  The two agree when `E`
  has entries in {0, 1} and `x`, `w` are real (module `PoolAlgebra`).
-/
import Idealize.ShloMosaic.PureOps.Ideal
import Idealize.ShloMosaic.Lib.ValueIdx

noncomputable section

namespace BilinearPool

open Idealize.ShloMosaic Idealize.ShloMosaic.ValueIdx

/-- A matrix of extended reals with literal extents. -/
abbrev Arr2 (a b : ℕ) := (⟨2, ![a, b]⟩ : Shape).Idx → EReal
/-- A vector of extended reals with a literal extent. -/
abbrev Arr1 (a : ℕ) := (⟨1, ![a]⟩ : Shape).Idx → EReal

/-! ## The three float constants both programs spell -/

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- The word of `2.0` denotes `2`. -/
theorem ofBits_two : Ideal.ofBits .f32 0x40000000#32 = 2 := by
  simp [Ideal.ofBits, Ideal.ieee, -EReal.coe_mul]; norm_num; norm_cast

/-! ## The guarded reciprocal -/

/-- `1 / n`, and `0` where `n = 0`. -/
def recipOrZero (n : EReal) : EReal := if n = 0 then 0 else Ideal.div 1 n

/-- Both programs compute the guarded reciprocal as `where(n = 0, 0, 1 / where(n = 0, 1, n))`. -/
theorem select_recip (n : EReal) :
    Scalar.select (Ideal.cmp .oeq n 0) (0 : EReal) (Ideal.div 1 (Scalar.select (Ideal.cmp .oeq n 0) (1 : EReal) n))
      = recipOrZero n := by
  unfold recipOrZero Ideal.cmp
  by_cases h : n = 0
  · simp [h, Scalar.select]
  · simp [h, Scalar.select]

section

variable (x : Arr2 10000 128) (E : Arr2 10000 10000) (w : Arr2 128 128) (b : Arr1 128)

/-- The projected features `P = x · w`. -/
def proj (j : Fin 10000) (c : Fin 128) : EReal := ∑ k : Fin 128, x (ix2 j k) * w (ix2 k c)

/-! ## The literal reading, over the adjacency with self loops -/

/-- `A = E + I`: one is added on the diagonal. -/
def adjLoop (i j : Fin 10000) : EReal := if i = j then E (ix2 i j) + 1 else E (ix2 i j)

/-- `(∑ⱼ A(i,j))² − ∑ⱼ A(i,j)²`. -/
def loopNorm (i : Fin 10000) : EReal :=
  (∑ j : Fin 10000, adjLoop E i j) * (∑ j : Fin 10000, adjLoop E i j) - ∑ j : Fin 10000, adjLoop E i j * adjLoop E i j

/-- The layer over `A`. -/
def viaLoops (i : Fin 10000) (c : Fin 128) : EReal :=
  recipOrZero (loopNorm E i)
      * ((∑ j : Fin 10000, adjLoop E i j * proj x w j c) * (∑ j : Fin 10000, adjLoop E i j * proj x w j c)
          - ∑ j : Fin 10000, (adjLoop E i j * adjLoop E i j) * (proj x w j c * proj x w j c))
    + b (ix1 c)

/-! ## The reading that never forms `A` -/

/-- The diagonal entry `E(i,i)`, as the sum over the row of the entries on the diagonal. -/
def diagOf (i : Fin 10000) : EReal := ∑ k : Fin 10000, (if i = k then E (ix2 i k) else 0)

/-- The self loop's weight in the sums of squares: `2 E(i,i) + 1`. -/
def selfWeight (i : Fin 10000) : EReal := 2 * diagOf E i + 1

/-- The row sum of `E`. -/
def degree (i : Fin 10000) : EReal := ∑ k : Fin 10000, E (ix2 i k)

/-- `(deg + 1)² − (deg + (2 E(i,i) + 1))`. -/
def splitNorm (i : Fin 10000) : EReal :=
  (degree E i + 1) * (degree E i + 1) - (degree E i + selfWeight E i)

/-- `∑ⱼ E(i,j) P(j,c)` with `P` as a leading part plus a remainder, plus row `i` of `P` likewise. -/
def splitSum (i : Fin 10000) (c : Fin 128) : EReal :=
  ((∑ k : Fin 10000, E (ix2 i k) * proj x w k c) + ∑ k : Fin 10000, E (ix2 i k) * (proj x w k c - proj x w k c))
    + (proj x w i c + (proj x w i c - proj x w i c))

/-- The same with `P²`, the self loop weighted by `2 E(i,i) + 1`. -/
def splitSquares (i : Fin 10000) (c : Fin 128) : EReal :=
  ((∑ k : Fin 10000, E (ix2 i k) * (proj x w k c * proj x w k c))
      + ∑ k : Fin 10000, E (ix2 i k) * (proj x w k c * proj x w k c - proj x w k c * proj x w k c))
    + selfWeight E i * (proj x w i c * proj x w i c + (proj x w i c * proj x w i c - proj x w i c * proj x w i c))

/-- The layer without `A`. -/
def viaSplit (i : Fin 10000) (c : Fin 128) : EReal :=
  recipOrZero (splitNorm E i) * (splitSum x E w i c * splitSum x E w i c - splitSquares x E w i c) + b (ix1 c)

end

end BilinearPool

end
-- ==== Proof.PoolAlgebra.lean ====
/-
  The real-number algebra behind the two readings of the bilinear pooling layer.

  With the adjacency entries in {0, 1} and real features and weights, every quantity below the bias is a real number,
  so the comparison of `viaSplit` with `viaLoops` is a finite computation in ℝ: with `A(i,j) = E(i,j) + [i = j]`,

      ∑ⱼ A(i,j) P(j)        = ∑ⱼ E(i,j) P(j) + P(i),
      ∑ⱼ A(i,j)² P(j)²      = ∑ⱼ E(i,j) P(j)² + (2 E(i,i) + 1) P(i)²      (because E² = E),

  and likewise with `P = 1` for the two row sums; the remainders `P − P` vanish on real numbers.  Extended reals are
  not a ring, so each side is first rewritten as the coercion of a real expression and the identities are proved in ℝ.
-/
import proofs.«101184_g33767032881163_cont_8to1_b_398_23_alg».proof.Proof.PoolSpec

noncomputable section

namespace BilinearPool

open Idealize.ShloMosaic Idealize.ShloMosaic.ValueIdx

/-! ## Sums of coerced reals -/

/-- A finite sum of coerced reals is the coercion of the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The identities in ℝ -/

section Real

variable {ι : Type*} [Fintype ι] [DecidableEq ι]

/-- `∑ⱼ A(i,j) P(j) = ∑ⱼ E(i,j) P(j) + P(i)`. -/
theorem sum_loop_mul (e p : ι → ℝ) (i : ι) :
    ∑ j, (if i = j then e j + 1 else e j) * p j = ∑ j, e j * p j + p i := by
  have h : ∀ j, (if i = j then e j + 1 else e j) * p j = e j * p j + (if i = j then p j else 0) := by
    intro j; split_ifs <;> ring
  simp_rw [h]
  rw [Finset.sum_add_distrib, Finset.sum_ite_eq]
  simp

/-- `∑ⱼ A(i,j) = deg + 1`. -/
theorem sum_loop (e : ι → ℝ) (i : ι) :
    ∑ j, (if i = j then e j + 1 else e j) = ∑ j, e j + 1 := by
  have h := sum_loop_mul e (fun _ => 1) i
  simpa using h

/-- `∑ⱼ A(i,j)² P(j)² = ∑ⱼ E(i,j) P(j)² + (2 E(i,i) + 1) P(i)²`, from `E² = E`. -/
theorem sum_loop_sq_mul (e p : ι → ℝ) (he : ∀ j, e j * e j = e j) (i : ι) :
    ∑ j, ((if i = j then e j + 1 else e j) * (if i = j then e j + 1 else e j)) * (p j * p j)
      = ∑ j, e j * (p j * p j) + (2 * e i + 1) * (p i * p i) := by
  have h : ∀ j, ((if i = j then e j + 1 else e j) * (if i = j then e j + 1 else e j)) * (p j * p j)
      = e j * (p j * p j) + (if i = j then (2 * e j + 1) * (p j * p j) else 0) := by
    intro j
    split_ifs
    · have : (e j + 1) * (e j + 1) = e j * e j + (2 * e j + 1) := by ring
      rw [this, he j]; ring
    · rw [he j]; ring
  simp_rw [h]
  rw [Finset.sum_add_distrib, Finset.sum_ite_eq]
  simp

/-- `∑ⱼ A(i,j)² = deg + (2 E(i,i) + 1)`. -/
theorem sum_loop_sq (e : ι → ℝ) (he : ∀ j, e j * e j = e j) (i : ι) :
    ∑ j, (if i = j then e j + 1 else e j) * (if i = j then e j + 1 else e j)
      = ∑ j, e j + (2 * e i + 1) := by
  have h := sum_loop_sq_mul e (fun _ => 1) he i
  simpa using h

end Real

/-! ## The quantities of both readings as coerced reals -/

section

variable (x : Arr2 10000 128) (E : Arr2 10000 10000) (w : Arr2 128 128) (b : Arr1 128)

/-- The projected features of real inputs are real. -/
theorem proj_real (hx : ∀ i, ∃ r : ℝ, x i = (r : EReal)) (hw : ∀ i, ∃ r : ℝ, w i = (r : EReal))
    (j : Fin 10000) (c : Fin 128) : ∃ r : ℝ, proj x w j c = (r : EReal) := by
  choose x' hx' using hx
  choose w' hw' using hw
  refine ⟨∑ k : Fin 128, x' (ix2 j k) * w' (ix2 k c), ?_⟩
  unfold proj
  simp only [hx', hw', ← EReal.coe_mul, coe_sum]

/-- An entry in {0, 1} is a real number equal to its own square. -/
theorem entry_real (hE : ∀ i, E i = 0 ∨ E i = 1) (i k : Fin 10000) :
    ∃ r : ℝ, E (ix2 i k) = (r : EReal) ∧ r * r = r := by
  rcases hE (ix2 i k) with h | h
  · exact ⟨0, by rw [h]; rfl, by ring⟩
  · exact ⟨1, by rw [h]; rfl, by ring⟩

variable (i : Fin 10000) (e : Fin 10000 → ℝ) (he : ∀ k, E (ix2 i k) = (e k : EReal))
include he

theorem adjLoop_coe (j : Fin 10000) :
    adjLoop E i j = ((if i = j then e j + 1 else e j : ℝ) : EReal) := by
  unfold adjLoop
  rw [he j]
  split_ifs <;> simp

theorem degree_coe : degree E i = ((∑ k, e k : ℝ) : EReal) := by
  unfold degree
  simp only [he, coe_sum]

theorem diagOf_coe : diagOf E i = (e i : EReal) := by
  unfold diagOf
  rw [Finset.sum_ite_eq]
  simp [he]

theorem selfWeight_coe : selfWeight E i = ((2 * e i + 1 : ℝ) : EReal) := by
  unfold selfWeight
  rw [diagOf_coe E i e he]
  norm_cast

theorem loopNorm_coe (hsq : ∀ k, e k * e k = e k) :
    loopNorm E i
      = (((∑ k, e k + 1) * (∑ k, e k + 1) - (∑ k, e k + (2 * e i + 1)) : ℝ) : EReal) := by
  unfold loopNorm
  simp only [adjLoop_coe E i e he, ← EReal.coe_mul, coe_sum, ← EReal.coe_sub]
  rw [sum_loop, sum_loop_sq e hsq]

theorem splitNorm_coe :
    splitNorm E i
      = (((∑ k, e k + 1) * (∑ k, e k + 1) - (∑ k, e k + (2 * e i + 1)) : ℝ) : EReal) := by
  unfold splitNorm
  rw [degree_coe E i e he, selfWeight_coe E i e he]
  norm_cast

variable (c : Fin 128) (p : Fin 10000 → ℝ) (hp : ∀ k, proj x w k c = (p k : EReal))
include hp

theorem loopSum_coe :
    ∑ j : Fin 10000, adjLoop E i j * proj x w j c = ((∑ k, e k * p k + p i : ℝ) : EReal) := by
  simp only [adjLoop_coe E i e he, hp, ← EReal.coe_mul, coe_sum]
  rw [sum_loop_mul]

theorem splitSum_coe :
    splitSum x E w i c = ((∑ k, e k * p k + p i : ℝ) : EReal) := by
  unfold splitSum
  simp only [he, hp, ← EReal.coe_mul, ← EReal.coe_sub, coe_sum, ← EReal.coe_add]
  simp

theorem loopSquares_coe (hsq : ∀ k, e k * e k = e k) :
    ∑ j : Fin 10000, (adjLoop E i j * adjLoop E i j) * (proj x w j c * proj x w j c)
      = ((∑ k, e k * (p k * p k) + (2 * e i + 1) * (p i * p i) : ℝ) : EReal) := by
  simp only [adjLoop_coe E i e he, hp, ← EReal.coe_mul, coe_sum]
  rw [sum_loop_sq_mul e p hsq]

theorem splitSquares_coe :
    splitSquares x E w i c
      = ((∑ k, e k * (p k * p k) + (2 * e i + 1) * (p i * p i) : ℝ) : EReal) := by
  unfold splitSquares
  rw [selfWeight_coe E i e he]
  simp only [he, hp, ← EReal.coe_mul, ← EReal.coe_sub, coe_sum, ← EReal.coe_add]
  simp

end

/-! ## The two readings agree -/

/-- With real features and weights and adjacency entries in {0, 1}, the layer computed without forming `A = E + I`
    is the layer spelt over `A`. -/
theorem viaSplit_eq_viaLoops (x : Arr2 10000 128) (E : Arr2 10000 10000) (w : Arr2 128 128) (b : Arr1 128)
    (hx : ∀ i, ∃ r : ℝ, x i = (r : EReal)) (hw : ∀ i, ∃ r : ℝ, w i = (r : EReal)) (hE : ∀ i, E i = 0 ∨ E i = 1)
    (i : Fin 10000) (c : Fin 128) : viaSplit x E w b i c = viaLoops x E w b i c := by
  choose e he hsq using entry_real E hE i
  choose p hp using fun k => proj_real x w hx hw k c
  unfold viaSplit viaLoops
  rw [splitNorm_coe E i e he, loopNorm_coe E i e he hsq, splitSum_coe x E w i e he c p hp,
    loopSum_coe x E w i e he c p hp, splitSquares_coe x E w i e he c p hp,
    loopSquares_coe x E w i e he c p hp hsq]

end BilinearPool

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.LibZeroOne.lean ====
/-
  An array whose entries are all `0` or `1`, read off a printed test.

  A predicate "every entry of `a` equals 0.0 or equals 1.0" prints as a reduction by `and`, from `true` over all
  axes, of the elementwise `or` of two float comparisons for equality against the broadcast scalars `0.0` and `1.0`.
  At the ideal values a float is an extended real and a comparison for equality is equality, the two words denote
  `0` and `1`, an `or` of one-bit words is `1` only if one of them is, and the reduction is `1` only if every entry
  is. So from "the test is true" every entry of `a` is `0` or `1` — in particular a real number with `a · a = a`.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Idealize.ShloMosaic.ZeroOne

open Idealize.ShloMosaic

/-- The f32 word of `1.0` denotes `1`. -/
theorem ofBits_one_f32 : Ideal.ofBits .f32 0x3F800000#32 = 1 := by
  simp [Ideal.ofBits, Ideal.ieee, -EReal.coe_mul]; norm_num

/-- At the ideal values a comparison for equality is `1` only between equal values. -/
theorem eq_of_cmp_oeq {a c : EReal} (h : Ideal.cmp .oeq a c = 1#1) : a = c := by
  unfold Ideal.cmp at h
  by_contra hne
  simp [hne] at h

/-- One entry: if one of `a = 0.0`, `a = 1.0` compares true then `a` is `0` or `1`. -/
theorem zero_or_one_of_bits (a : EReal)
    (h : IntOp.ori (Ideal.cmp .oeq a (Ideal.ofBits .f32 0x00000000#32))
          (Ideal.cmp .oeq a (Ideal.ofBits .f32 0x3F800000#32)) = 1#1) : a = 0 ∨ a = 1 := by
  rw [Ideal.ofBits_zero_f32, ofBits_one_f32] at h
  rcases IntOp.ori_eq_one.1 h with h0 | h1
  · exact Or.inl (eq_of_cmp_oeq h0)
  · exact Or.inr (eq_of_cmp_oeq h1)

/-- One array, any shape: if `all ((a = 0.0) | (a = 1.0))` is `true` then every entry of `a` is `0` or `1`. -/
theorem all_zero_or_one {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (ori (cmpf .oeq a (broadcastInDim s ![] bc (constant ⟨0, ![]⟩ .f32 0x00000000#32)))
            (cmpf .oeq a (broadcastInDim s ![] bc (constant ⟨0, ![]⟩ .f32 0x3F800000#32))))
          init hr hu ValueIdx.ix0 = 1#1)
    (i : s.Idx) : a i = 0 ∨ a i = 1 := by
  have h := Host.reduce_andi_all _ init hr hu ValueIdx.ix0 e i
  refine zero_or_one_of_bits (a i) ?_
  have hb0 : broadcastInDim s ![] bc (constant (F := Ideal) ⟨0, ![]⟩ .f32 0x00000000#32) i
      = Ideal.ofBits .f32 0x00000000#32 :=
    broadcastInDim_apply _ bc _ i ValueIdx.ix0 (fun a => a.elim0)
  have hb1 : broadcastInDim s ![] bc (constant (F := Ideal) ⟨0, ![]⟩ .f32 0x3F800000#32) i
      = Ideal.ofBits .f32 0x3F800000#32 :=
    broadcastInDim_apply _ bc _ i ValueIdx.ix0 (fun a => a.elim0)
  rw [← hb0, ← hb1]
  exact h

/-- An entry that is `0` or `1` is a real number equal to its own square. -/
theorem real_idempotent {a : EReal} (h : a = 0 ∨ a = 1) : ∃ r : ℝ, a = (r : EReal) ∧ r * r = r := by
  rcases h with rfl | rfl
  · exact ⟨0, by simp, by simp⟩
  · exact ⟨1, by simp, by simp⟩

end Idealize.ShloMosaic.ZeroOne

end
-- ==== Proof.PoolDomain.lean ====
/-
  What the precondition says about the argument arrays.

  The precondition is a conjunction of five statements, each a reduction by `and` over a whole array.  Four of them
  say `|a| < +inf` at every entry of one argument; at the ideal values that leaves exactly the real numbers.  The fifth
  says that at every entry of the adjacency `E` one of the comparisons `E = 0.0`, `E = 1.0` holds.  At the ideal values
  a float comparison for equality is equality of extended reals, and the words of `0.0` and `1.0` denote `0` and `1`,
  so every entry of `E` is `0` or `1`.

  A conjunction of one-bit words is `1` only if both are, and a reduction by `and` from `true` over all axes is `1`
  only if every entry is; so the single hypothesis "the precondition is `true`" splits into the five statements and
  each gives its fact at every index.
-/
import Idealize.ShloMosaic.PureOps.Ideal
import Idealize.ShloMosaic.Lib.ReduceAll
import Idealize.ShloMosaic.Lib.ValueIdx
import Idealize.ShloMosaic.Lib.Pipeline.Value
import proofs.«101184_g33767032881163_cont_8to1_b_398_23_alg».proof.Pre_finite_inputs
import proofs.«101184_g33767032881163_cont_8to1_b_398_23_alg».proof.Proof.LibFiniteAll
import proofs.«101184_g33767032881163_cont_8to1_b_398_23_alg».proof.Proof.LibZeroOne
import proofs.«101184_g33767032881163_cont_8to1_b_398_23_alg».proof.Proof.PoolSpec

noncomputable section

namespace BilinearPool.Domain

open Idealize.ShloMosaic Idealize.ShloMosaic.ZeroOne

open Cert.Pre_finite_inputs in
/-- The precondition, read back: `x` and `w` have real entries and every entry of `E` is `0` or `1`. -/
theorem domain_of_pre [Cert.Pre_finite_inputs.Facts]
    (x : FVec Ideal Cert.Pre_finite_inputs.S10000x128 .f32) (E : FVec Ideal Cert.Pre_finite_inputs.S10000x10000 .f32)
    (w : FVec Ideal Cert.Pre_finite_inputs.S128x128 .f32) (b : FVec Ideal Cert.Pre_finite_inputs.S128 .f32)
    (h : Cert.Pre_finite_inputs.fn (F := Ideal) x E w b = fun _ => 1#1) :
    (∀ i, ∃ r : ℝ, x i = (r : EReal)) ∧ (∀ i, ∃ r : ℝ, w i = (r : EReal)) ∧ (∀ i, E i = 0 ∨ E i = 1) := by
  have h0 := congrFun h ValueIdx.ix0
  dsimp only [fn, fn_part1] at h0
  obtain ⟨h1234, h5⟩ := IntOp.andi_eq_one.1 h0
  obtain ⟨h123, _h4⟩ := IntOp.andi_eq_one.1 h1234
  obtain ⟨h12, h3⟩ := IntOp.andi_eq_one.1 h123
  obtain ⟨h1, _h2⟩ := IntOp.andi_eq_one.1 h12
  exact ⟨FiniteAll.all_real x _ _ _ _ h1, FiniteAll.all_real w _ _ _ _ h3, all_zero_or_one E _ _ _ _ h5⟩

open Cert.Pre_finite_inputs in
/-- The precondition, read back for the bias: its entries are real. -/
theorem bias_real_of_pre [Cert.Pre_finite_inputs.Facts]
    (x : FVec Ideal Cert.Pre_finite_inputs.S10000x128 .f32) (E : FVec Ideal Cert.Pre_finite_inputs.S10000x10000 .f32)
    (w : FVec Ideal Cert.Pre_finite_inputs.S128x128 .f32) (b : FVec Ideal Cert.Pre_finite_inputs.S128 .f32)
    (h : Cert.Pre_finite_inputs.fn (F := Ideal) x E w b = fun _ => 1#1) :
    ∀ i, ∃ r : ℝ, b i = (r : EReal) := by
  have h0 := congrFun h ValueIdx.ix0
  dsimp only [fn, fn_part1] at h0
  obtain ⟨h1234, _h5⟩ := IntOp.andi_eq_one.1 h0
  obtain ⟨_h123, h4⟩ := IntOp.andi_eq_one.1 h1234
  exact FiniteAll.all_real b _ _ _ _ h4

end BilinearPool.Domain

end
-- ==== Proof.PoolReference.lean ====
/-
  The reference program computes the layer spelt over the adjacency with self loops.

  The program forms `P = x · w`, then `A` from `E` by adding `1.0` at the positions a list of index pairs names, then the
  row sums of `A` and of `A²` (elementwise), their combination `n(i) = (∑ⱼ A(i,j))² − ∑ⱼ A(i,j)²`, the guarded
  reciprocal `where(n = 0, 0, 1 / where(n = 0, 1, n))`, the products `A · P` and `A² · P²`, and last
  `r(i) · ((A·P)(i,c)² − (A²·P²)(i,c)) + b(c)`.

  The one step that is not read off elementwise is the scatter. Its index array has row `j` equal to `(j, j)`: each
  column is `select (j < 0) (j + 10000) j` over the row numbers `j = 0 … 9999`, and a row number below 10000 is not
  negative as a signed 32-bit word, so the select keeps `j`. With both operand axes inserted there is no window, and
  update position `j` lands on element `(j, j)`. Over the extended reals the accumulating scatter is the operand's
  element plus the sum of the updates that land on it, so at `(p, q)` it gives `E(p,q) + 1` when `p = q` (only
  position `p` lands there) and `E(p,q)` otherwise: that is `adjLoop`. Every other stage is read at one row or one
  element from the stages before it, the two reductions starting from the word of `0.0`, and the chain ends in
  `viaLoops`.
-/
import proofs.«101184_g33767032881163_cont_8to1_b_398_23_alg».proof.Proof.Gen.ReferenceIdeal.Read
import proofs.«101184_g33767032881163_cont_8to1_b_398_23_alg».proof.Proof.PoolSpec
import Idealize.ShloMosaic.Lib.Pipeline.Value
import Idealize.ShloMosaic.Lib.ValueIdx

noncomputable section

namespace BilinearPool.Reference

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Signed reading of a row number -/

/-- A row number below 10000 read as a signed 32-bit word is itself. -/
theorem toInt_row (n : Nat) (h : n < 10000) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- A row number below 10000 is not negative as a signed word. -/
theorem not_slt_zero (n : Nat) (h : n < 10000) : IntOp.cmpi .slt (BitVec.ofNat 32 n) 0#32 = 0#1 := by
  unfold IntOp.cmpi
  have : (BitVec.ofNat 32 n).slt 0#32 = false := by
    rw [BitVec.slt_eq_decide, toInt_row n h]
    simp
  simp only [this]
  rfl

/-! ## Where an update position lands -/

/-- Update position `j` reads component `c` of its start index at `(j, c)` of the index array. -/
theorem siIdx_eq (j : S10000.Idx) (c : Fin 2) :
    scatter_S10000x10000_S10000x2_S10000_n_01_01_1.siIdx j c = ix2 (j 0) c := by
  funext b
  match b with
  | ⟨0, _⟩ => exact Fin.ext rfl
  | ⟨1, _⟩ => exact Fin.ext rfl

/-- On axis 0 the landing coordinate is the index array's entry `(j, 0)`, read signed; there is no window. -/
theorem start_window0 (j : S10000.Idx) (idx : IVec S10000x2 32) :
    scatter_S10000x10000_S10000x2_S10000_n_01_01_1.start j idx (0 : Fin 2) + scatter_S10000x10000_S10000x2_S10000_n_01_01_1.window j (0 : Fin 2)
      = (idx (ix2 (j 0) (0 : Fin 2))).toInt := by
  have e : scatter_S10000x10000_S10000x2_S10000_n_01_01_1.start j idx (0 : Fin 2) + scatter_S10000x10000_S10000x2_S10000_n_01_01_1.window j (0 : Fin 2)
      = (idx (scatter_S10000x10000_S10000x2_S10000_n_01_01_1.siIdx j (0 : Fin 2))).toInt + ((0 : Nat) : Int) := rfl
  rw [e, siIdx_eq]
  simp only [Nat.cast_zero, add_zero]
  rfl

/-- On axis 1 the landing coordinate is the index array's entry `(j, 1)`, read signed; there is no window. -/
theorem start_window1 (j : S10000.Idx) (idx : IVec S10000x2 32) :
    scatter_S10000x10000_S10000x2_S10000_n_01_01_1.start j idx (1 : Fin 2) + scatter_S10000x10000_S10000x2_S10000_n_01_01_1.window j (1 : Fin 2)
      = (idx (ix2 (j 0) (1 : Fin 2))).toInt := by
  have e : scatter_S10000x10000_S10000x2_S10000_n_01_01_1.start j idx (1 : Fin 2) + scatter_S10000x10000_S10000x2_S10000_n_01_01_1.window j (1 : Fin 2)
      = (idx (scatter_S10000x10000_S10000x2_S10000_n_01_01_1.siIdx j (1 : Fin 2))).toInt + ((0 : Nat) : Int) := rfl
  rw [e, siIdx_eq]
  simp only [Nat.cast_zero, add_zero]
  rfl

/-! ## The index array: row `j` is `(j, j)` -/

/-- The negative-index normalisation keeps a row number: `select (j < 0) (j + 10000) j = j`. -/
theorem v6_row (i : S10000.Idx) : val_main_v6 (F := Ideal) i = BitVec.ofNat 32 (i 0).val := by
  rw [val_main_v6_apply, val_main_v3_apply, val_main_v1_apply, val_main_v2_apply, val_main_c_apply,
    not_slt_zero _ (i 0).isLt, select_zero]

/-- The same for the second column's copy. -/
theorem v11_row (i : S10000.Idx) : val_main_v11 (F := Ideal) i = BitVec.ofNat 32 (i 0).val := by
  rw [val_main_v11_apply, val_main_v8_apply, val_main_v1_apply, val_main_v7_apply, val_main_c_1_apply,
    not_slt_zero _ (i 0).isLt, select_zero]

/-- Both columns of the index array hold the row number. -/
theorem v14_row (a : Fin 10000) (c : Fin 2) : val_main_v14 (F := Ideal) (ix2 a c) = BitVec.ofNat 32 a.val := by
  unfold val_main_v14
  match c with
  | ⟨0, _⟩ =>
    rw [concatenate_pair_apply_left (t := S10000x2) (s₁ := S10000x1) (s₂ := S10000x1) (1 : Fin 2) _ _ _
      (ix2 a (⟨0, by decide⟩ : Fin 2)) rfl (ix2 a (0 : Fin 1))
      (fun b => by match b with | ⟨0, _⟩ => rfl | ⟨1, _⟩ => rfl)]
    rw [val_main_v12_apply, v6_row]
  | ⟨1, _⟩ =>
    rw [concatenate_pair_apply_right (t := S10000x2) (s₁ := S10000x1) (s₂ := S10000x1) (1 : Fin 2) _ _ _
      (ix2 a (⟨1, by decide⟩ : Fin 2)) rfl rfl (ix2 a (0 : Fin 1))
      (fun b hb => by match b with | ⟨0, _⟩ => rfl | ⟨1, _⟩ => exact absurd rfl hb) rfl]
    rw [val_main_v13_apply, v11_row]

/-- Update position `j` lands on the diagonal element `(j, j)`. -/
theorem lands (j : S10000.Idx) :
    scatter_S10000x10000_S10000x2_S10000_n_01_01_1.resultIdx? j (val_main_v14 (F := Ideal)) = some (ix2 (j 0) (j 0)) := by
  have hj : (j 0).val < 10000 := (j 0).isLt
  have hall : ∀ a : Fin 2, scatter_S10000x10000_S10000x2_S10000_n_01_01_1.start j (val_main_v14 (F := Ideal)) a
      + scatter_S10000x10000_S10000x2_S10000_n_01_01_1.window j a = ((j 0).val : Int) := fun a => by
    match a with
    | ⟨0, _⟩ => exact (start_window0 j _).trans ((congrArg BitVec.toInt (v14_row (j 0) 0)).trans (toInt_row _ hj))
    | ⟨1, _⟩ => exact (start_window1 j _).trans ((congrArg BitVec.toInt (v14_row (j 0) 1)).trans (toInt_row _ hj))
  unfold ScatterDims.resultIdx?
  rw [dif_pos (fun a => by
    rw [hall a]
    refine ⟨by omega, ?_⟩
    match a with
    | ⟨0, _⟩ => show ((j 0).val : Int) < 10000; omega
    | ⟨1, _⟩ => show ((j 0).val : Int) < 10000; omega)]
  refine congrArg some (funext fun a => Fin.ext ?_)
  show (scatter_S10000x10000_S10000x2_S10000_n_01_01_1.start j (val_main_v14 (F := Ideal)) a
      + scatter_S10000x10000_S10000x2_S10000_n_01_01_1.window j a).toNat = _
  rw [hall a, Int.toNat_natCast]
  match a with
  | ⟨0, _⟩ => rfl
  | ⟨1, _⟩ => rfl

/-! ## The scatter adds one on the diagonal -/

/-- The adjacency with self loops, as the program forms it: `E` with `1.0` added at `(j, j)` for every row `j`. -/
theorem v16_read (E : Arr2 10000 10000) (p q : Fin 10000) :
    val_main_v16 (F := Ideal) E (ix2 p q) = adjLoop E p q := by
  unfold val_main_v16 Host.scatterAdd
  rw [Ideal.hostScatterAdd_def]
  unfold Ideal.hostScatterAdd adjLoop
  by_cases h : p = q
  · subst h
    rw [if_pos rfl]
    rw [Finset.sum_eq_single_of_mem (ix1 p)
      (Finset.mem_filter.2 ⟨Finset.mem_univ _, lands (ix1 p)⟩)
      (fun j hj hne => absurd (by
        have e := (lands j).symm.trans (Finset.mem_filter.1 hj).2
        rw [eq_ix1 j]
        exact congrArg ix1 (congrFun (Option.some.inj e) 0)) hne)]
    rw [val_main_v15_apply, val_main_cst_apply]
    show E (ix2 p p) + Ideal.ofBits .f32 0x3F800000#32 = _
    rw [ofBits_one]
  · rw [if_neg h]
    rw [Finset.sum_eq_zero (fun j hj => absurd (by
        have e := Option.some.inj ((lands j).symm.trans (Finset.mem_filter.1 hj).2)
        exact (congrFun e 0).symm.trans (congrFun e 1)) h), add_zero]

/-! ## The stages, read at a row or an element -/

section Stages

variable (x : Arr2 10000 128) (E : Arr2 10000 10000) (w : Arr2 128 128) (b : Arr1 128)

/-- The first product is the projected features. -/
theorem v0_read (j : Fin 10000) (c : Fin 128) : val_main_v0 (F := Ideal) x w (ix2 j c) = proj x w j c := by
  rw [val_main_v0_apply]
  unfold proj
  refine Finset.sum_congr rfl fun k _ => ?_
  exact congrArg₂ (· * ·)
    (congrArg x (funext fun a => Fin.ext (by match a with | ⟨0, _⟩ => rfl | ⟨1, _⟩ => rfl)))
    (congrArg w (funext fun a => Fin.ext (by match a with | ⟨0, _⟩ => rfl | ⟨1, _⟩ => rfl)))

/-- The row sum of `A`. -/
theorem v17_read (p : Fin 10000) : val_main_v17 (F := Ideal) E (ix1 p) = ∑ k : Fin 10000, adjLoop E p k := by
  rw [val_main_v17_apply, val_main_cst_3_apply]
  show Ideal.ofBits .f32 0x00000000#32 + _ = _
  rw [ofBits_zero, zero_add]
  refine Finset.sum_congr rfl fun k _ => ?_
  exact (congrArg (val_main_v16 (F := Ideal) E)
    (funext fun a => Fin.ext (by match a with | ⟨0, _⟩ => rfl | ⟨1, _⟩ => rfl))).trans (v16_read E p k)

/-- The row sum of the squares of `A`. -/
theorem v20_read (p : Fin 10000) :
    val_main_v20 (F := Ideal) E (ix1 p) = ∑ k : Fin 10000, adjLoop E p k * adjLoop E p k := by
  rw [val_main_v20_apply, val_main_cst_4_apply]
  show Ideal.ofBits .f32 0x00000000#32 + _ = _
  rw [ofBits_zero, zero_add]
  refine Finset.sum_congr rfl fun k _ => ?_
  rw [val_main_v19_apply]
  have e : val_main_v16 (F := Ideal) E (idx_main_v20 (ix1 p) k) = adjLoop E p k :=
    (congrArg (val_main_v16 (F := Ideal) E)
      (funext fun a => Fin.ext (by match a with | ⟨0, _⟩ => rfl | ⟨1, _⟩ => rfl))).trans (v16_read E p k)
  rw [e]
  rfl

/-- The normaliser before the reciprocal. -/
theorem v21_read (p : Fin 10000) : val_main_v21 (F := Ideal) E (ix1 p) = loopNorm E p := by
  rw [val_main_v21_apply, val_main_v18_apply, v17_read, v20_read]
  rfl

/-- The guarded reciprocal of the normaliser. -/
theorem v27_read (p : Fin 10000) : val_main_v27 (F := Ideal) E (ix1 p) = recipOrZero (loopNorm E p) := by
  rw [val_main_v27_apply, val_main_v26_apply, val_main_v24_apply, val_main_v23_apply, v21_read,
    val_main_v22_apply, val_main_cst_5_apply, val_main_call1_v1_apply, val_main_call1_v0_apply, val_main_cst_8_apply,
    val_main_v25_apply, val_main_cst_7_apply, val_main_call0_v1_apply, val_main_call0_v0_apply, val_main_cst_6_apply]
  show Scalar.select (Ideal.cmp .oeq (loopNorm E p) (Ideal.ofBits .f32 0x00000000#32)) (Ideal.ofBits .f32 0x00000000#32)
      (Ideal.div (Ideal.ofBits .f32 0x3F800000#32)
        (Scalar.select (Ideal.cmp .oeq (loopNorm E p) (Ideal.ofBits .f32 0x00000000#32)) (Ideal.ofBits .f32 0x3F800000#32)
          (loopNorm E p))) = _
  rw [ofBits_zero, ofBits_one]
  exact select_recip _

/-- `A · P`. -/
theorem v28_read (p : Fin 10000) (q : Fin 128) :
    val_main_v28 (F := Ideal) x E w (ix2 p q) = ∑ k : Fin 10000, adjLoop E p k * proj x w k q := by
  rw [val_main_v28_apply]
  refine Finset.sum_congr rfl fun k _ => ?_
  exact congrArg₂ (· * ·)
    ((congrArg (val_main_v16 (F := Ideal) E)
      (funext fun a => Fin.ext (by match a with | ⟨0, _⟩ => rfl | ⟨1, _⟩ => rfl))).trans (v16_read E p k))
    ((congrArg (val_main_v0 (F := Ideal) x w)
      (funext fun a => Fin.ext (by match a with | ⟨0, _⟩ => rfl | ⟨1, _⟩ => rfl))).trans (v0_read x w k q))

/-- `A² · P²`, the squares taken elementwise. -/
theorem v32_read (p : Fin 10000) (q : Fin 128) :
    val_main_v32 (F := Ideal) x E w (ix2 p q)
      = ∑ k : Fin 10000, (adjLoop E p k * adjLoop E p k) * (proj x w k q * proj x w k q) := by
  rw [val_main_v32_apply]
  refine Finset.sum_congr rfl fun k _ => ?_
  rw [val_main_v30_apply, val_main_v31_apply]
  have e1 : val_main_v16 (F := Ideal) E (lidx_main_v32 (ix2 p q) k) = adjLoop E p k :=
    (congrArg (val_main_v16 (F := Ideal) E)
      (funext fun a => Fin.ext (by match a with | ⟨0, _⟩ => rfl | ⟨1, _⟩ => rfl))).trans (v16_read E p k)
  have e2 : val_main_v0 (F := Ideal) x w (ridx_main_v32 (ix2 p q) k) = proj x w k q :=
    (congrArg (val_main_v0 (F := Ideal) x w)
      (funext fun a => Fin.ext (by match a with | ⟨0, _⟩ => rfl | ⟨1, _⟩ => rfl))).trans (v0_read x w k q)
  rw [e1, e2]
  rfl

/-- The last stage is the layer spelt over `A`. -/
theorem v39_read (p : Fin 10000) (q : Fin 128) :
    val_main_v39 (F := Ideal) x E w b (ix2 p q) = viaLoops x E w b p q := by
  rw [val_main_v39_apply, val_main_v36_apply, val_main_v35_apply, val_main_v34_apply, val_main_v33_apply,
    val_main_v29_apply, val_main_v38_apply, val_main_v37_apply, v28_read, v32_read]
  have e1 : idx_main_v34 (idx_main_v35 (ix2 p q)) = ix1 p :=
    funext fun a => Fin.ext (by match a with | ⟨0, _⟩ => rfl)
  have e2 : idx_main_v37 (idx_main_v38 (ix2 p q)) = ix1 q :=
    funext fun a => Fin.ext (by match a with | ⟨0, _⟩ => rfl)
  rw [e1, e2, v27_read]
  rfl

end Stages

/-! ## The run -/

/-- Every weakly fair execution of the reference program ends with its result the layer spelt over `A = E + I`, the
    four arguments unchanged. -/
theorem run_viaLoops (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v39)
            = (fun i => BilinearPool.viaLoops (m ((c.tc : Thread nD τ).loc main_arg0)) (m ((c.tc : Thread nD τ).loc main_arg1))
                (m ((c.tc : Thread nD τ).loc main_arg2)) (m ((c.tc : Thread nD τ).loc main_arg3)) (i 0) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run _ _ _).mono (fun _ h c => ⟨(h c).1.trans ((val_main_v39_eq m c).trans (funext fun i => by
      obtain ⟨p, q, rfl⟩ : ∃ (p : Fin 10000) (q : Fin 128), i = ix2 p q := ⟨i 0, i 1, eq_ix2 i⟩
      exact v39_read _ _ _ _ p q)), (h c).2⟩)
    (Cert.ReferenceIdeal.Value.run (F := Ideal) m ρ)

end BilinearPool.Reference

end
-- ==== Proof.PoolKernelPieces.lean ====
/-
  What one grid point of the kernel leaves behind, as pure functions of what it loaded.

  The kernel keeps a packed table of 640 columns per node in a scratch buffer: the projected features `P = x · w`,
  their squares, the two remainders `P − P` and `P² − P²` (the parts a narrower float format would drop), and a
  column of ones. The first grid point writes the table, five column groups of 128, and every point reads it: whole,
  as the right operand of one product with its 200 rows of the adjacency, and through the point's own 200 rows.
  `tableOf` is the table as the five stores leave it; `blockOf` is a point's 200 × 128 result block from its
  adjacency rows, the bias row and the table. The three lemmas say that this is what the first point (which writes
  the table first) and a later point (which finds it) leave in the output block and in the scratch.
-/
import proofs.«101184_g33767032881163_cont_8to1_b_398_23_alg».proof.Proof.Gen.KernelIdeal.Frame
import Idealize.ShloMosaic.Lib.Pipeline.Value

set_option maxRecDepth 16384

noncomputable section

namespace BilinearPool.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Offsets `(0, 0)` are the zero offsets. -/
theorem zeros2 : (![0, 0] : Fin 2 → ℕ) = fun _ => 0 := by
  funext a
  match a with
  | ⟨0, _⟩ => rfl
  | ⟨1, _⟩ => rfl

/-- The 200 rows of the table that belong to grid point `i`: rows `200 i … 200 i + 199`, all 640 columns. -/
def rowsRect (i : grid0.Coords) : Rect S10000x640 :=
  Rect.unit (s := S10000x640) (k0_off1 i) S200x640.size (k0_off1_inb i)

/-- A point's result block from its adjacency rows `a`, the bias row `r` and the table `T`. -/
def blockOf (i : grid0.Coords) (a : Vec F S200x10000 .f32) (r : Vec F S1x128 .f32) (T : Vec F S10000x640 .bf16) :
    Vec F S200x128 .f32 :=
  k0_pay1 (k0_pay11 a T) (k0_pay12 i a) (k0_pay13 a T (View.ld T (rowsRect i))) (k0_pay14 i a T (View.ld T (rowsRect i)))
    (k0_pay15 (F := F)) r

/-- The five stores of the first point, last first: the ones column, the two remainders, the squares, the features. -/
def tablePieces (x : Vec F S10000x128 .f32) (w : Vec F S128x128 .f32) : List (View.Piece (Elt F) S10000x640 .bf16) :=
  [⟨Rect.unit (s := S10000x640) ![0, 512] S10000x128.size inb_S10000x640_S10000x128_0_512, k0_pay8 (F := F)⟩,
   ⟨Rect.unit (s := S10000x640) ![0, 384] S10000x128.size inb_S10000x640_S10000x128_0_384, k0_pay7 x w⟩,
   ⟨Rect.unit (s := S10000x640) ![0, 256] S10000x128.size inb_S10000x640_S10000x128_0_256, k0_pay6 x w⟩,
   ⟨Rect.unit (s := S10000x640) ![0, 128] S10000x128.size inb_S10000x640_S10000x128_0_128, k0_pay5 x w⟩,
   ⟨Rect.unit (s := S10000x640) ![0, 0] S10000x128.size inb_S10000x640_S10000x128_0_0, k0_pay4 x w⟩]

/-- The table as the first point's stores leave it. -/
def tableOf (x : Vec F S10000x128 .f32) (w : Vec F S128x128 .f32) : Vec F S10000x640 .bf16 :=
  View.canon (tablePieces x w)

/-- A later point stores its block computed from the table it finds. -/
theorem later_block (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S1x128 .f32) (harg4 : arg4.IsWhole) (arg5 : Memref sig .tc .vmem S200x128 .f32) (harg5 : arg5.IsWhole) (arg6 : Memref sig .tc .vmem S10000x640 .bf16) (harg6 : arg6.IsWhole) (hc0 : ¬cond0_0 i) (x0 : Vec F S10000x128 .f32) (x1 : Vec F S128x128 .f32) (x2 : Vec F S200x10000 .f32) (x3 : Vec F S1x128 .f32) (xs0 : Vec F S10000x640 .bf16) :
    out0_B_4 c i arg1 harg1 arg2 harg2 arg3 harg3 arg4 harg4 arg5 harg5 arg6 harg6 hc0 x0 x1 x2 x3 xs0 = blockOf i x2 x3 xs0 := by
  unfold out0_B_4
  rw [View.read_writes_junk_eq_canon]
  unfold kernelRun0_B
  dsimp only
  sl_unfold_words
  rw [View.canon_unit_zero zeros2]
  simp only [View.readAt_eq_ld, harg3.read_unread, harg4.read_unread, harg6.read_unread,
    View.ld_unit_zero (S := S200x10000) zeros2, View.ld_unit_zero (S := S10000x640) zeros2,
    View.ld_unit_zero (S := S1x128) zeros2]
  rfl

/-- The first point leaves the table in the scratch. -/
theorem first_table (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S1x128 .f32) (harg4 : arg4.IsWhole) (arg5 : Memref sig .tc .vmem S200x128 .f32) (harg5 : arg5.IsWhole) (arg6 : Memref sig .tc .vmem S10000x640 .bf16) (harg6 : arg6.IsWhole) (hc0 : cond0_0 i) (x0 : Vec F S10000x128 .f32) (x1 : Vec F S128x128 .f32) (x2 : Vec F S200x10000 .f32) (x3 : Vec F S1x128 .f32) :
    sout0_A_0 c i arg1 harg1 arg2 harg2 arg3 harg3 arg4 harg4 arg5 harg5 arg6 harg6 hc0 x0 x1 x2 x3 = tableOf x0 x1 := by
  unfold sout0_A_0
  rw [View.read_writes_junk_eq_canon]
  unfold kernelRun0_A
  dsimp only
  sl_unfold_words
  simp only [View.readAt_eq_ld, harg1.read_unread, harg2.read_unread,
    View.ld_unit_zero (S := S10000x128) zeros2, View.ld_unit_zero (S := S128x128) zeros2]
  rfl

/-- The first point stores its block computed from the table it has just written. -/
theorem first_block (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S1x128 .f32) (harg4 : arg4.IsWhole) (arg5 : Memref sig .tc .vmem S200x128 .f32) (harg5 : arg5.IsWhole) (arg6 : Memref sig .tc .vmem S10000x640 .bf16) (harg6 : arg6.IsWhole) (hc0 : cond0_0 i) (x0 : Vec F S10000x128 .f32) (x1 : Vec F S128x128 .f32) (x2 : Vec F S200x10000 .f32) (x3 : Vec F S1x128 .f32) :
    out0_A_4 c i arg1 harg1 arg2 harg2 arg3 harg3 arg4 harg4 arg5 harg5 arg6 harg6 hc0 x0 x1 x2 x3 = blockOf i x2 x3 (tableOf x0 x1) := by
  unfold out0_A_4
  rw [View.read_writes_junk_eq_canon]
  unfold kernelRun0_A
  dsimp only
  sl_unfold_words
  rw [View.canon_unit_zero zeros2]
  simp only [View.readCov_eq_canon', View.readAt_writes_junk_eq_canon]
  simp only [View.readAt_eq_ld, harg1.read_unread, harg2.read_unread, harg3.read_unread, harg4.read_unread,
    View.ld_unit_zero (S := S10000x128) zeros2, View.ld_unit_zero (S := S128x128) zeros2,
    View.ld_unit_zero (S := S200x10000) zeros2, View.ld_unit_zero (S := S1x128) zeros2]
  show k0_pay1
      (k0_pay11 x2 (View.ld (tableOf x0 x1) (Rect.unit (s := S10000x640) ![0, 0] S10000x640.size inb_S10000x640_S10000x640_0_0)))
      (k0_pay12 i x2)
      (k0_pay13 x2 (View.ld (tableOf x0 x1) (Rect.unit (s := S10000x640) ![0, 0] S10000x640.size inb_S10000x640_S10000x640_0_0))
        (View.ld (tableOf x0 x1) (rowsRect i)))
      (k0_pay14 i x2 (View.ld (tableOf x0 x1) (Rect.unit (s := S10000x640) ![0, 0] S10000x640.size inb_S10000x640_S10000x640_0_0))
        (View.ld (tableOf x0 x1) (rowsRect i)))
      (k0_pay15 (F := F)) x3 = _
  rw [View.ld_unit_zero (S := S10000x640) zeros2]
  rfl

end BilinearPool.Kernel

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumnStores.lean ====
/-
  A buffer of `C` columns filled by stores of column groups, read at an index.

  A body that assembles an `R × C` buffer from narrower `R × c` payloads stores each through a unit-stride rectangle
  at row 0 and some column offset. The buffer's contents are the canon of the list of stores (last first): at
  column `j`, a store that begins beyond `j` does not touch it, and the store whose columns hold `j = off + q` gives
  its payload at local column `q`. Walking the list with these two facts reads any entry of the assembled buffer.
-/
import Idealize.ShloMosaic.Lib.Pipeline.Value
import Idealize.ShloMosaic.Lib.ValueIdx

noncomputable section

namespace Idealize.ShloMosaic.ColumnStores

open Idealize.ShloMosaic Idealize.ShloMosaic.ValueIdx

variable {Val : EltTy → Type} [∀ e, Nonempty (Val e)] {e : EltTy} {R C c : ℕ}

/-- A store of `c` columns from column `off`, made last, is read at column `off + q` as its payload at column `q`. -/
theorem canon_cols_hit (off : ℕ)
    (inb : ∀ a, (![0, off] : Fin 2 → ℕ) a + (⟨2, ![R, c]⟩ : Shape).size a ≤ (⟨2, ![R, C]⟩ : Shape).size a)
    (w : (⟨2, ![R, c]⟩ : Shape).Idx → Val e) (L : List (View.Piece Val ⟨2, ![R, C]⟩ e))
    (k : Fin R) (q : Fin c) (j : Fin C) (hj : j.val = off + q.val) :
    View.canon ((⟨Rect.unit (s := ⟨2, ![R, C]⟩) ![0, off] (⟨2, ![R, c]⟩ : Shape).size inb, w⟩ : View.Piece Val ⟨2, ![R, C]⟩ e) :: L)
        (ix2 k j) = w (ix2 k q) := by
  have h : (ix2 k j : (⟨2, ![R, C]⟩ : Shape).Idx)
      = (Rect.unit (s := ⟨2, ![R, C]⟩) ![0, off] (⟨2, ![R, c]⟩ : Shape).size inb).emb (ix2 k q) := by
    funext a
    apply Fin.ext
    match a with
    | ⟨0, _⟩ => show k.val = 0 + 1 * k.val; omega
    | ⟨1, _⟩ => show j.val = off + 1 * q.val; omega
  rw [h, View.canon_cons_emb]

/-- A store that begins at a column beyond `j` leaves column `j` as the earlier stores left it. -/
theorem canon_cols_miss (off : ℕ)
    (inb : ∀ a, (![0, off] : Fin 2 → ℕ) a + (⟨2, ![R, c]⟩ : Shape).size a ≤ (⟨2, ![R, C]⟩ : Shape).size a)
    (w : (⟨2, ![R, c]⟩ : Shape).Idx → Val e) (L : List (View.Piece Val ⟨2, ![R, C]⟩ e))
    (k : Fin R) (j : Fin C) (hj : j.val < off) :
    View.canon ((⟨Rect.unit (s := ⟨2, ![R, C]⟩) ![0, off] (⟨2, ![R, c]⟩ : Shape).size inb, w⟩ : View.Piece Val ⟨2, ![R, C]⟩ e) :: L)
        (ix2 k j) = View.canon L (ix2 k j) := by
  apply View.canon_cons_of_not_mem
  intro hm
  have hm' : (ix2 k j : (⟨2, ![R, C]⟩ : Shape).Idx)
      ∈ (Rect.unit (s := ⟨2, ![R, C]⟩) ![0, off] (⟨2, ![R, c]⟩ : Shape).size inb).set := hm
  have h1 := (Rect.mem_set_unit.mp hm') (1 : Fin 2)
  have h2 : off ≤ j.val := h1.1
  omega

end Idealize.ShloMosaic.ColumnStores

end
-- ==== Proof.PoolKernelTable.lean ====
/-
  The entries of the kernel's packed table over the extended reals.

  The table has 640 columns per node in five groups of 128, each written by one store of a 10000 × 128 payload at a
  column offset. An entry in column `off + q` of the group at offset `off` is outside every store that begins at a
  later column and is the image of the local index `(k, q)` under that group's own rectangle, so it is that group's
  payload at `(k, q)`. Over the extended reals a narrowing of the float format is the identity, a product into the
  zero accumulator is the sum `∑ₘ x(k,m) · w(m,q)`, and a float operation is the exact one: the groups hold the
  projected features `P`, their squares `P · P`, the remainders `P − P` and `P · P − P · P`, and the indicator of
  local column 0, which is one at column 512.
-/
import proofs.«101184_g33767032881163_cont_8to1_b_398_23_alg».proof.Proof.PoolKernelPieces
import proofs.«101184_g33767032881163_cont_8to1_b_398_23_alg».proof.Proof.PoolSpec
import proofs.«101184_g33767032881163_cont_8to1_b_398_23_alg».proof.Proof.LibPlainDot
import proofs.«101184_g33767032881163_cont_8to1_b_398_23_alg».proof.Proof.LibColumnStores
import Idealize.ShloMosaic.Lib.Pipeline.Value
import Idealize.ShloMosaic.Lib.ValueIdx

set_option maxRecDepth 16384

noncomputable section

namespace BilinearPool.Kernel

open Cert.KernelIdeal Cert.KernelIdeal.Gen
open Idealize.ShloMosaic Idealize.ShloMosaic.ValueIdx Idealize.ShloMosaic.ColumnStores

/-! ## The payloads at an index -/

/-- The product into the zero accumulator is the projected feature. -/
theorem pay2_apply (x : Vec Ideal S10000x128 .f32) (w : Vec Ideal S128x128 .f32) (k : Fin 10000) (q : Fin 128) :
    k0_pay2 x w (ix2 k q) = BilinearPool.proj x w k q := by
  unfold k0_pay2 BilinearPool.proj
  exact PlainDot.matmul_zero_apply dot_S10000x128_S128x128_S10000x128_1_0_0_1_n_n rfl none x w k q

theorem pay3_apply (x : Vec Ideal S10000x128 .f32) (w : Vec Ideal S128x128 .f32) (k : Fin 10000) (q : Fin 128) :
    k0_pay3 x w (ix2 k q) = BilinearPool.proj x w k q * BilinearPool.proj x w k q := by
  unfold k0_pay3
  rw [mulf_apply, pay2_apply]

theorem pay4_apply (x : Vec Ideal S10000x128 .f32) (w : Vec Ideal S128x128 .f32) (k : Fin 10000) (q : Fin 128) :
    k0_pay4 x w (ix2 k q) = BilinearPool.proj x w k q := by
  unfold k0_pay4
  rw [shapeCast_self, truncf_apply, pay2_apply]

theorem pay5_apply (x : Vec Ideal S10000x128 .f32) (w : Vec Ideal S128x128 .f32) (k : Fin 10000) (q : Fin 128) :
    k0_pay5 x w (ix2 k q) = BilinearPool.proj x w k q * BilinearPool.proj x w k q := by
  unfold k0_pay5
  rw [shapeCast_self, truncf_apply, pay3_apply]

theorem pay6_apply (x : Vec Ideal S10000x128 .f32) (w : Vec Ideal S128x128 .f32) (k : Fin 10000) (q : Fin 128) :
    k0_pay6 x w (ix2 k q) = BilinearPool.proj x w k q - BilinearPool.proj x w k q := by
  unfold k0_pay6
  rw [shapeCast_self, truncf_apply, subf_apply, pay2_apply]

theorem pay7_apply (x : Vec Ideal S10000x128 .f32) (w : Vec Ideal S128x128 .f32) (k : Fin 10000) (q : Fin 128) :
    k0_pay7 x w (ix2 k q)
      = BilinearPool.proj x w k q * BilinearPool.proj x w k q - BilinearPool.proj x w k q * BilinearPool.proj x w k q := by
  unfold k0_pay7
  rw [shapeCast_self, truncf_apply, subf_apply, pay3_apply]

/-- The indicator of column 0 is one at column 0. -/
theorem pay8_apply (k : Fin 10000) :
    (k0_pay8 (F := Ideal)) (ix2 k (0 : Fin 128)) = 1 := by
  unfold k0_pay8
  rw [shapeCast_self, truncf_apply, select_apply, cmpi, iota_single_apply, broadcast_apply, broadcast_apply, broadcast_apply]
  show Scalar.select (IntOp.cmpi .eq (BitVec.ofNat 32 0) 0#32) (Ideal.ofBits .f32 0x3F800000#32) (Ideal.ofBits .f32 0x00000000#32) = 1
  rw [select_eq0 0 (by omega), if_pos rfl]
  exact BilinearPool.ofBits_one

/-! ## The table's five column groups -/

theorem table_feat (x : Vec Ideal S10000x128 .f32) (w : Vec Ideal S128x128 .f32) (k : Fin 10000) (q : Fin 128) :
    tableOf x w (ix2 k (⟨q.val, by omega⟩ : Fin 640)) = BilinearPool.proj x w k q := by
  have hq := q.isLt
  unfold tableOf tablePieces
  refine (canon_cols_miss 512 _ _ _ k _ (by show q.val < 512; omega)).trans ?_
  refine (canon_cols_miss 384 _ _ _ k _ (by show q.val < 384; omega)).trans ?_
  refine (canon_cols_miss 256 _ _ _ k _ (by show q.val < 256; omega)).trans ?_
  refine (canon_cols_miss 128 _ _ _ k _ (by show q.val < 128; omega)).trans ?_
  refine (canon_cols_hit 0 _ _ _ k q _ (by show q.val = 0 + q.val; omega)).trans ?_
  exact pay4_apply x w k q

theorem table_sq (x : Vec Ideal S10000x128 .f32) (w : Vec Ideal S128x128 .f32) (k : Fin 10000) (q : Fin 128) :
    tableOf x w (ix2 k (⟨128 + q.val, by omega⟩ : Fin 640)) = BilinearPool.proj x w k q * BilinearPool.proj x w k q := by
  have hq := q.isLt
  unfold tableOf tablePieces
  refine (canon_cols_miss 512 _ _ _ k _ (by show 128 + q.val < 512; omega)).trans ?_
  refine (canon_cols_miss 384 _ _ _ k _ (by show 128 + q.val < 384; omega)).trans ?_
  refine (canon_cols_miss 256 _ _ _ k _ (by show 128 + q.val < 256; omega)).trans ?_
  refine (canon_cols_hit 128 _ _ _ k q _ rfl).trans ?_
  exact pay5_apply x w k q

theorem table_featRem (x : Vec Ideal S10000x128 .f32) (w : Vec Ideal S128x128 .f32) (k : Fin 10000) (q : Fin 128) :
    tableOf x w (ix2 k (⟨256 + q.val, by omega⟩ : Fin 640)) = BilinearPool.proj x w k q - BilinearPool.proj x w k q := by
  have hq := q.isLt
  unfold tableOf tablePieces
  refine (canon_cols_miss 512 _ _ _ k _ (by show 256 + q.val < 512; omega)).trans ?_
  refine (canon_cols_miss 384 _ _ _ k _ (by show 256 + q.val < 384; omega)).trans ?_
  refine (canon_cols_hit 256 _ _ _ k q _ rfl).trans ?_
  exact pay6_apply x w k q

theorem table_sqRem (x : Vec Ideal S10000x128 .f32) (w : Vec Ideal S128x128 .f32) (k : Fin 10000) (q : Fin 128) :
    tableOf x w (ix2 k (⟨384 + q.val, by omega⟩ : Fin 640))
      = BilinearPool.proj x w k q * BilinearPool.proj x w k q - BilinearPool.proj x w k q * BilinearPool.proj x w k q := by
  have hq := q.isLt
  unfold tableOf tablePieces
  refine (canon_cols_miss 512 _ _ _ k _ (by show 384 + q.val < 512; omega)).trans ?_
  refine (canon_cols_hit 384 _ _ _ k q _ rfl).trans ?_
  exact pay7_apply x w k q

theorem table_one (x : Vec Ideal S10000x128 .f32) (w : Vec Ideal S128x128 .f32) (k : Fin 10000) :
    tableOf x w (ix2 k (⟨512, by omega⟩ : Fin 640)) = 1 := by
  unfold tableOf tablePieces
  refine (canon_cols_hit 512 _ _ _ k (0 : Fin 128) _ rfl).trans ?_
  exact pay8_apply k

end BilinearPool.Kernel

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.PoolKernelValue.lean ====
/-
  One entry of one grid point's result block, at the ideal values.

  A point multiplies its 200 rows `a` of the adjacency with the whole packed table `T` (one product of 640
  columns), reads its own 200 rows of the table, picks the diagonal entries of the adjacency out of its rows by a
  mask (row number = column number) and a row sum, and combines them entry by entry. Read at local row `p` and
  channel `q`, with `row = 200 t + p`:

    * the product at column `c` is `∑ₖ a(p,k) · T(k,c)`; column 512 (the ones) gives the row sum `deg`;
    * the masked row sum is `E(row,row)`, so the self loop's weight is `sw = 2 · E(row,row) + 1`;
    * `s = (prod(q) + prod(256+q)) + (T(row,q) + T(row,256+q))`,
      `sq = (prod(128+q) + prod(384+q)) + sw · (T(row,128+q) + T(row,384+q))`;
    * the entry is `recip((deg+1)² − (deg+sw)) · (s² − sq) + bias(q)`.

  With the table's entries (the projected features, their squares, the two remainders and the ones column) this is
  `viaSplit` of the whole arrays at `(row, q)`: `block_entry`.
-/
import proofs.«101184_g33767032881163_cont_8to1_b_398_23_alg».proof.Proof.PoolKernelPieces
import proofs.«101184_g33767032881163_cont_8to1_b_398_23_alg».proof.Proof.PoolSpec
import proofs.«101184_g33767032881163_cont_8to1_b_398_23_alg».proof.Proof.PoolKernelTable
import proofs.«101184_g33767032881163_cont_8to1_b_398_23_alg».proof.Proof.LibPlainDot
import proofs.«101184_g33767032881163_cont_8to1_b_398_23_alg».proof.Proof.LibColumns
import proofs.«101184_g33767032881163_cont_8to1_b_398_23_alg».proof.Proof.LibRowReduce
import Idealize.ShloMosaic.Lib.ValueLayout
import Idealize.ShloMosaic.Lib.Affine

set_option maxRecDepth 16384

noncomputable section

namespace BilinearPool.Kernel

open Cert.KernelIdeal Cert.KernelIdeal.Gen
open Idealize.ShloMosaic Idealize.ShloMosaic.ValueIdx

/-- A grid point's coordinate is below 50. -/
theorem coord_lt (i : grid0.Coords) : (i 0).val < 50 := (i 0).isLt

/-- The row-equals-column test of the kernel, on 32-bit words: `row = 200 t + p` against column `k`. -/
theorem diag_word (t p k : ℕ) (ht : t < 50) (hp : p < 200) (hk : k < 10000) :
    IntOp.cmpi .eq (IntOp.addi (BitVec.ofNat 32 p) (IntOp.muli (BitVec.ofNat 32 t) 200#32)) (BitVec.ofNat 32 k) = 1#1
      ↔ 200 * t + p = k := by
  have e : IntOp.addi (BitVec.ofNat 32 p) (IntOp.muli (BitVec.ofNat 32 t) 200#32) = BitVec.ofNat 32 (200 * t + p) := by
    apply BitVec.eq_of_toNat_eq
    simp only [IntOp.addi, IntOp.muli, BitVec.toNat_add, BitVec.toNat_mul, BitVec.toNat_ofNat]
    omega
  rw [IntOp.cmpi_eq, e]
  constructor
  · intro h
    have h' := congrArg BitVec.toNat h
    simp only [BitVec.toNat_ofNat] at h'
    omega
  · rintro rfl; rfl

/-- A one-bit choice whose bit is set exactly when `P` holds is an `if`. -/
theorem select_of_iff {α : Type} (c : BitVec 1) (P : Prop) [Decidable P] (h : c = 1#1 ↔ P) (u v : α) :
    Scalar.select c u v = if P then u else v := by
  unfold Scalar.select
  by_cases hP : P
  · rw [if_pos hP]; exact if_pos (h.mpr hP)
  · rw [if_neg hP]; exact if_neg (fun hc => hP (h.mp hc))

/-- 128 consecutive columns of a 200 × 640 array, from column `o`. -/
theorem cols128 {α : Type} (o : ℕ) (ho : o + 128 ≤ 640) (v : (⟨2, ![200, 640]⟩ : Shape).Idx → α)
    (h : (⟨2, ![200, 640]⟩ : Shape).Slices ![0, o] ⟨2, ![200, 128]⟩) (p : Fin 200) (q : Fin 128) :
    extractStridedSlice ⟨2, ![200, 128]⟩ ![0, o] v h (ix2 p q)
      = v (ix2 p (⟨o + q.val, by have := q.isLt; omega⟩ : Fin 640)) := by
  refine extractStridedSlice_apply _ v h (ix2 p q) _ fun ax => ?_
  match ax with
  | ⟨0, _⟩ => show p.val = 0 + p.val; omega
  | ⟨1, _⟩ => rfl

section
variable (a : Vec Ideal S200x10000 .f32) (r : Vec Ideal S1x128 .f32) (T : Vec Ideal S10000x640 .bf16)

/-- The product of the point's adjacency rows with the table, at an entry. -/
theorem prod_at (p : Fin 200) (c : Fin 640) :
    k0_pay9 a T (ix2 p c) = ∑ k : Fin 10000, a (ix2 p k) * T (ix2 k c) := by
  unfold k0_pay9
  exact PlainDot.matmul_zero_apply _ rfl none _ T p c

/-- The point's own rows of the table. -/
theorem rows_at (i : grid0.Coords) (p : Fin 200) (c : Fin 640) :
    View.ld T (rowsRect i) (ix2 p c)
      = T (ix2 (⟨200 * (i 0).val + p.val, by have := coord_lt i; have := p.isLt; omega⟩ : Fin 10000) c) := by
  show T ((rowsRect i).idx (ix2 p c)) = _
  refine congrArg T (funext fun ax => Fin.ext ?_)
  match ax with
  | ⟨0, _⟩ =>
    show k0_off1 i 0 + 1 * p.val = 200 * (i 0).val + p.val
    rw [k0_off1_eq]
    show 200 * (i 0).val + 1 * p.val = _
    omega
  | ⟨1, _⟩ =>
    show k0_off1 i 1 + 1 * c.val = c.val
    rw [k0_off1_eq]
    show 0 + 1 * c.val = _
    omega
end

section
variable (a : Vec Ideal S200x10000 .f32) (r : Vec Ideal S1x128 .f32) (T : Vec Ideal S10000x640 .bf16)

/-- The row sums of the adjacency rows, taken from the product's ones column. -/
theorem degree_at (p : Fin 200) (z : Fin 1) :
    k0_pay11 a T (ix2 p z) = ∑ k : Fin 10000, a (ix2 p k) * T (ix2 k (⟨512, by omega⟩ : Fin 640)) := by
  unfold k0_pay11
  rw [extractStridedSlice_column_apply ![0, 512] (⟨512, by omega⟩ : Fin 640) rfl rfl]
  exact prod_at a T p _

/-- One entry of the masked adjacency rows: the entry itself on the diagonal of the whole matrix, zero off it. -/
theorem masked_at (i : grid0.Coords) (p : Fin 200) (k : Fin 10000) :
    (select
        (cmpi CmpIPredicate.eq
          (addi (iota Kind.tc S200x10000 32 [0] iota_S200x10000_d0_w32)
            (broadcast S200x10000 (Scalar.muli (BitVec.ofNat 32 (i 0).val) 200#32)))
          (iota Kind.tc S200x10000 32 [1] iota_S200x10000_d1_w32))
        a (broadcast S200x10000 (FloatOps.ofBits (F := Ideal) FTy.f32 0#32)) : Vec Ideal S200x10000 .f32) (ix2 p k)
      = if 200 * (i 0).val + p.val = k.val then a (ix2 p k) else 0 := by
  rw [select_apply, broadcast_apply]
  show Scalar.select (IntOp.cmpi .eq (IntOp.addi (iota Kind.tc S200x10000 32 [0] iota_S200x10000_d0_w32 (ix2 p k))
      (IntOp.muli (BitVec.ofNat 32 (i 0).val) 200#32)) (iota Kind.tc S200x10000 32 [1] iota_S200x10000_d1_w32 (ix2 p k))) _ _ = _
  rw [iota_single_apply, iota_single_apply]
  rw [select_of_iff _ _ (diag_word (i 0).val p.val k.val (coord_lt i) p.isLt k.isLt)]
  rw [Ideal.ofBits_def, ofBits_zero]

/-- The self loop's weight `2 · E(row,row) + 1`, the diagonal entry picked out of the row by a mask. -/
theorem selfWeight_at (i : grid0.Coords) (p : Fin 200) (z : Fin 1) :
    k0_pay12 i a (ix2 p z)
      = 2 * (∑ k : Fin 10000, if 200 * (i 0).val + p.val = k.val then a (ix2 p k) else 0) + 1 := by
  unfold k0_pay12
  dsimp only
  rw [addf_apply, mulf_apply, broadcast_apply, broadcast_apply, RowReduce.shapeCast_a_a1_apply]
  refine Eq.trans (congrArg (fun s => FloatOps.ofBits (F := Ideal) FTy.f32 1073741824#32 * s + FloatOps.ofBits (F := Ideal) FTy.f32 1065353216#32)
    (RowReduce.multiReduction_add_row _ _ _ _ _ p)) ?_
  simp only [Ideal.ofBits_def, ofBits_two, ofBits_one]
  exact congrArg (fun s => 2 * s + 1) (Finset.sum_congr rfl fun k _ => masked_at a i p k)

/-- The row `200 t + p` of the whole arrays that local row `p` of grid point `i` stands for. -/
def rowOf (i : grid0.Coords) (p : Fin 200) : Fin 10000 :=
  ⟨200 * (i 0).val + p.val, by have := coord_lt i; have := p.isLt; omega⟩

/-- Column `o + q` of the table. -/
def colAt (o : ℕ) (ho : o + 128 ≤ 640) (q : Fin 128) : Fin 640 := ⟨o + q.val, by have := q.isLt; omega⟩

/-- The neighbourhood sum of the features: leading part and remainder through the product, plus the node's own row. -/
theorem featSum_at (i : grid0.Coords) (p : Fin 200) (q : Fin 128) :
    k0_pay13 a T (View.ld T (rowsRect i)) (ix2 p q)
      = ((∑ k : Fin 10000, a (ix2 p k) * T (ix2 k (colAt 0 (by omega) q)))
          + ∑ k : Fin 10000, a (ix2 p k) * T (ix2 k (colAt 256 (by omega) q)))
        + (T (ix2 (rowOf i p) (colAt 0 (by omega) q)) + T (ix2 (rowOf i p) (colAt 256 (by omega) q))) := by
  unfold k0_pay13 k0_pay10
  dsimp only
  simp only [addf_apply]
  rw [cols128 0 (by omega), cols128 256 (by omega), cols128 0 (by omega), cols128 256 (by omega),
    prod_at, prod_at]
  exact congrArg₂ (· + ·) rfl (congrArg₂ (· + ·) (rows_at T i p _) (rows_at T i p _))

/-- The same for the squares, the node's own row weighted by `2 · E(row,row) + 1`. -/
theorem sqSum_at (i : grid0.Coords) (p : Fin 200) (q : Fin 128) :
    k0_pay14 i a T (View.ld T (rowsRect i)) (ix2 p q)
      = ((∑ k : Fin 10000, a (ix2 p k) * T (ix2 k (colAt 128 (by omega) q)))
          + ∑ k : Fin 10000, a (ix2 p k) * T (ix2 k (colAt 384 (by omega) q)))
        + (2 * (∑ k : Fin 10000, if 200 * (i 0).val + p.val = k.val then a (ix2 p k) else 0) + 1)
            * (T (ix2 (rowOf i p) (colAt 128 (by omega) q)) + T (ix2 (rowOf i p) (colAt 384 (by omega) q))) := by
  unfold k0_pay14 k0_pay10
  dsimp only
  simp only [addf_apply, mulf_apply]
  rw [broadcastTo_a1_ab_apply, selfWeight_at, cols128 128 (by omega), cols128 384 (by omega), cols128 128 (by omega),
    cols128 384 (by omega), prod_at, prod_at]
  exact congrArg₂ (· + ·) rfl (congrArg₂ (· * ·) rfl (congrArg₂ (· + ·) (rows_at T i p _) (rows_at T i p _)))

/-- The last stage over plain values: the guarded reciprocal of the norm times `s² − q`, plus the bias. -/
theorem out_at (v27 v31 : FVec Ideal S200x1 .f32) (v35 v41 : FVec Ideal S200x128 .f32) (v42 : FVec Ideal S200x1 .f32)
    (v59 : Vec Ideal S1x128 .f32) (p : Fin 200) (q : Fin 128) :
    k0_pay1 v27 v31 v35 v41 v42 v59 (ix2 p q)
      = recipOrZero ((v27 (ix2 p 0) + v42 (ix2 p 0)) * (v27 (ix2 p 0) + v42 (ix2 p 0)) - (v27 (ix2 p 0) + v31 (ix2 p 0)))
          * (v35 (ix2 p q) * v35 (ix2 p q) - v41 (ix2 p q))
        + v59 (ix2 0 q) := by
  unfold k0_pay1
  simp only [addf_apply, mulf_apply, subf_apply, divf_apply, select_apply, cmpf_apply, broadcast_apply,
    broadcastTo_a1_ab_apply, broadcastTo_1b_ab_apply, shapeCast_self]
  simp only [Ideal.ofBits_def, ofBits_zero, ofBits_one]
  exact congrArg (fun s => s * (v35 (ix2 p q) * v35 (ix2 p q) - v41 (ix2 p q)) + v59 (ix2 0 q)) (select_recip _)

/-- The column of ones the row sums are offset by. -/
theorem ones_at (p : Fin 200) (z : Fin 1) : k0_pay15 (F := Ideal) (ix2 p z) = 1 := by
  unfold k0_pay15
  rw [broadcast_apply]
  exact ofBits_one

/-- ONE ENTRY OF A POINT'S BLOCK, over any adjacency rows `a`, bias row `r` and table `T`: with `deg` the product of
    the row with the ones column, `sw = 2 · diag + 1`, `s` and `q` the two neighbourhood sums, the entry is
    `recip((deg + 1)² − (deg + sw)) · (s² − q) + bias`. -/
theorem blockOf_at (i : grid0.Coords) (p : Fin 200) (q : Fin 128) :
    blockOf i a r T (ix2 p q)
      = recipOrZero
            (((∑ k : Fin 10000, a (ix2 p k) * T (ix2 k (⟨512, by omega⟩ : Fin 640))) + 1)
                * ((∑ k : Fin 10000, a (ix2 p k) * T (ix2 k (⟨512, by omega⟩ : Fin 640))) + 1)
              - ((∑ k : Fin 10000, a (ix2 p k) * T (ix2 k (⟨512, by omega⟩ : Fin 640)))
                  + (2 * (∑ k : Fin 10000, if 200 * (i 0).val + p.val = k.val then a (ix2 p k) else 0) + 1)))
          * ((((∑ k : Fin 10000, a (ix2 p k) * T (ix2 k (colAt 0 (by omega) q)))
                  + ∑ k : Fin 10000, a (ix2 p k) * T (ix2 k (colAt 256 (by omega) q)))
                + (T (ix2 (rowOf i p) (colAt 0 (by omega) q)) + T (ix2 (rowOf i p) (colAt 256 (by omega) q))))
              * (((∑ k : Fin 10000, a (ix2 p k) * T (ix2 k (colAt 0 (by omega) q)))
                  + ∑ k : Fin 10000, a (ix2 p k) * T (ix2 k (colAt 256 (by omega) q)))
                + (T (ix2 (rowOf i p) (colAt 0 (by omega) q)) + T (ix2 (rowOf i p) (colAt 256 (by omega) q))))
              - (((∑ k : Fin 10000, a (ix2 p k) * T (ix2 k (colAt 128 (by omega) q)))
                  + ∑ k : Fin 10000, a (ix2 p k) * T (ix2 k (colAt 384 (by omega) q)))
                + (2 * (∑ k : Fin 10000, if 200 * (i 0).val + p.val = k.val then a (ix2 p k) else 0) + 1)
                    * (T (ix2 (rowOf i p) (colAt 128 (by omega) q)) + T (ix2 (rowOf i p) (colAt 384 (by omega) q)))))
        + r (ix2 0 q) := by
  unfold blockOf
  rw [out_at, degree_at, selfWeight_at, featSum_at, sqSum_at, ones_at]
end

/-- ONE ENTRY OF A POINT'S BLOCK IS THE LAYER'S VALUE THERE: for adjacency rows `a` that are the rows `200 t + p` of
    `E`, a bias row `r` that is `b`, and the table of `x` and `w`. -/
theorem block_entry (x : Vec Ideal S10000x128 .f32) (w : Vec Ideal S128x128 .f32) (E : Arr2 10000 10000) (b : Arr1 128)
    (i : grid0.Coords) (a : Vec Ideal S200x10000 .f32) (r : Vec Ideal S1x128 .f32)
    (ha : ∀ (p : Fin 200) (k : Fin 10000), a (ix2 p k) = E (ix2 (rowOf i p) k))
    (hr : ∀ q : Fin 128, r (ix2 0 q) = b (ix1 q)) (p : Fin 200) (q : Fin 128) :
    blockOf i a r (tableOf x w) (ix2 p q) = viaSplit x E w b (rowOf i p) q := by
  have c0 : colAt 0 (by omega) q = (⟨q.val, by omega⟩ : Fin 640) := Fin.ext (Nat.zero_add _)
  have c1 : colAt 128 (by omega) q = (⟨128 + q.val, by omega⟩ : Fin 640) := rfl
  have c2 : colAt 256 (by omega) q = (⟨256 + q.val, by omega⟩ : Fin 640) := rfl
  have c3 : colAt 384 (by omega) q = (⟨384 + q.val, by omega⟩ : Fin 640) := rfl
  have hd : ∀ k : Fin 10000, (if 200 * (i 0).val + p.val = k.val then E (ix2 (rowOf i p) k) else 0)
      = (if rowOf i p = k then E (ix2 (rowOf i p) k) else 0) :=
    fun k => if_congr ⟨fun h => Fin.ext h, fun h => congrArg Fin.val h⟩ rfl rfl
  rw [blockOf_at, c0, c1, c2, c3]
  simp only [table_one, table_feat, table_sq, table_featRem, table_sqRem, mul_one, ha, hr, hd]
  rfl

end BilinearPool.Kernel

end
-- ==== Proof.PoolKernelRun.lean ====
/-
  From what each grid point leaves to the whole output array.

  The kernel runs over a grid of 50 points.  Point `t` loads the whole feature array `x`, the whole weight `w`, rows
  `200 t … 200 t + 199` of the adjacency `E` (all 10000 columns) and the bias as one row of 128, and stores rows
  `200 t … 200 t + 199` of the output (all 128 columns).  The first point also writes a table of the projected features
  into a buffer that stays in place between points; every later point finds it there and writes nothing to it.

  Three steps lead from the points to the array.

  * Block reads.  The block a point loads is the array itself for `x` and `w` (block `(0, 0)` of a one-block array),
    row `200 t + p` of `E` at row `p` of the block, and entry `q` of the bias at `(0, q)` of the bias row: the host
    reshapes the bias vector to one row before the grid starts, and a reshape to a leading unit axis keeps the entries.
  * The table.  After every point the carried buffer holds the table of the whole `x` and `w`: the first point writes it
    from the blocks it loaded, which are the whole arrays, and by induction on the point no later point changes it.  So
    every point's stored block is one function, `blockOf`, of its adjacency rows, the bias row and that one table.
  * The array.  Suppose entry `(p, q)` of point `t`'s block is the layer's value at node `200 t + p` and channel `q`
    (the arithmetic of one entry: a hypothesis here).  Block row `t` of the output puts that entry at row `200 t + p`,
    column `q`, so what point `t` writes back is block `t` of the layer's array.  Row `r` lies in the block of point
    `r / 200`, so the 50 blocks fill the array, and the array after the run is the layer's array.
-/
import proofs.«101184_g33767032881163_cont_8to1_b_398_23_alg».proof.Proof.Gen.KernelIdeal.Value
import proofs.«101184_g33767032881163_cont_8to1_b_398_23_alg».proof.Proof.PoolKernelPieces
import proofs.«101184_g33767032881163_cont_8to1_b_398_23_alg».proof.Proof.PoolSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace BilinearPool.Kernel

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## Where each window's block sits -/

/-- The printed index maps, decided over the 50 points: the features, the weight and the bias row are always block
    `(0, 0)`; the adjacency and the output are at block row `t`. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every point loads the whole feature array. -/
theorem features_block (c : Dev nD) (t : Fin cfg0.N) : iblk m c 0 t = V m c main_arg0 := by
  obtain ⟨e0, e1, -⟩ := index_facts t
  funext j
  unfold iblk
  rw [View.read_apply]
  show V m c main_arg0 _ = V m c main_arg0 j
  congr 1
  funext a
  apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- Every point loads the whole weight. -/
theorem weight_block (c : Dev nD) (t : Fin cfg0.N) : iblk m c 1 t = V m c main_arg2 := by
  obtain ⟨-, -, e0, e1, -⟩ := index_facts t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- Point `t` loads rows `200 t … 200 t + 199` of the adjacency. -/
theorem adjacency_block (c : Dev nD) (t : Fin cfg0.N) (p : Fin 200) (k : Fin 10000)
    (hr : 200 * t.val + p.val < 10000) :
    iblk m c 2 t (ix2 p k) = V m c main_arg1 (ix2 ⟨200 * t.val + p.val, hr⟩ k) := by
  obtain ⟨-, -, -, -, e0, e1, -⟩ := index_facts t
  unfold iblk
  rw [View.read_apply]
  show V m c main_arg1 _ = V m c main_arg1 _
  congr 1
  funext a
  apply Fin.ext
  match a with
  | ⟨0, _⟩ => show win0_2.index t (0 : Fin 2) * 200 + 1 * p.val = 200 * t.val + p.val; rw [e0]; omega
  | ⟨1, _⟩ => show win0_2.index t (1 : Fin 2) * 10000 + 1 * k.val = k.val; rw [e1]; omega

/-- The bias row is the bias vector read as one row: the host reshapes it before the grid starts. -/
theorem bias_block (c : Dev nD) (t : Fin cfg0.N) (z : Fin 1) (q : Fin 128) :
    iblk m c 3 t (ix2 z q) = m ((c : Thread nD τ).loc main_arg3) (ix1 q) := by
  obtain ⟨-, -, -, -, -, -, e0, e1, -⟩ := index_facts t
  have e : (V m c main_v0 : S1x128.Idx → EReal)
      = shapeCast S1x128 (m ((c : Thread nD τ).loc main_arg3)) shapeCasts_S128_S1x128 := by
    dsimp only [Gen.V, Gen.hostOps0]; after_results; rfl
  unfold iblk
  rw [View.read_apply]
  have hi : ((cfg0.win 3).blk t).view.emb (ix2 z q) = ix2 z q := by
    funext a
    apply Fin.ext
    match a with
    | ⟨0, _⟩ => show win0_3.index t (0 : Fin 2) * 1 + 1 * z.val = z.val; rw [e0]; omega
    | ⟨1, _⟩ => show win0_3.index t (1 : Fin 2) * 128 + 1 * q.val = q.val; rw [e1]; omega
  rw [hi]
  show (V m c main_v0 : S1x128.Idx → EReal) (ix2 z q) = _
  rw [e]
  exact shapeCast_a_1a_apply _ _ z q

/-! ## The table every point finds -/

/-- At the first point the scratch is left holding the table of the whole feature array and weight. -/
theorem table_first (c : Dev nD) (t : Fin cfg0.N) (h0 : t.val % 50 = 0) :
    (outsAt0 m c t.val t.isLt).2 = tableOf (V m c main_arg0) (V m c main_arg2) := by
  rw [outsAt0_A m c t h0]
  dsimp only
  refine (first_table (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (iblk m c 0 t) (iblk m c 1 t) (iblk m c 2 t) (iblk m c 3 t)).trans ?_
  rw [features_block, weight_block]

/-- No later point writes the scratch, so after every point it holds that table. -/
theorem table_carried (c : Dev nD) : ∀ (n : ℕ) (hn : n < cfg0.N),
    (outsAt0 m c n hn).2 = tableOf (V m c main_arg0) (V m c main_arg2)
  | 0, hn => table_first m c ⟨0, hn⟩ (Nat.zero_mod 50)
  | n + 1, hn => by
    have hN : cfg0.N = 50 := N_0
    have hB : ¬(⟨n + 1, hn⟩ : Fin cfg0.N).val % 50 = 0 := by dsimp only; omega
    rw [outsAt0_B m c ⟨n + 1, hn⟩ hB]
    show (outsAt0 m c n _).2 = _
    exact table_carried c n _

/-! ## What every point stores -/

/-- Point `t`'s result block, from its adjacency rows, the bias row and the table of the whole arrays. -/
theorem point_block (c : Dev nD) (t : Fin cfg0.N) :
    (outsAt0 m c t.val t.isLt).1
      = blockOf (grid0.coords t) (iblk m c 2 t) (iblk m c 3 t) (tableOf (V m c main_arg0) (V m c main_arg2)) := by
  by_cases h0 : t.val % 50 = 0
  · rw [outsAt0_A m c t h0]
    dsimp only
    refine (first_block (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    rw [features_block, weight_block]
  · rw [outsAt0_B m c t h0]
    dsimp only
    refine (later_block (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    rw [table_carried m c (t.val - 1) (Nat.lt_of_le_of_lt (Nat.sub_le _ _) t.isLt)]

/-! ## The whole output array -/

/-- The layer's value at every node and channel, laid out as the output array. -/
abbrev layerArray (c : Dev nD) : Buf (Elt Ideal) ((c : Thread nD τ).loc main_v1) :=
  fun i => viaSplit (m ((c : Thread nD τ).loc main_arg0)) (m ((c : Thread nD τ).loc main_arg1))
    (m ((c : Thread nD τ).loc main_arg2)) (m ((c : Thread nD τ).loc main_arg3)) (i 0) (i 1)

/-- What point `t` writes back is block `t` of the layer's array: entry `(p, q)` of its block is the layer's value at
    node `200 t + p` and channel `q` (the hypothesis), and that is where the output's block row `t` puts it. -/
theorem flushed_eq
    (hval : ∀ (c : Dev nD) (t : Fin cfg0.N) (p : Fin 200) (q : Fin 128) (hr : 200 * t.val + p.val < 10000),
      blockOf (F := Ideal) (grid0.coords t) (iblk m c 2 t) (iblk m c 3 t)
          (tableOf (V m c main_arg0) (V m c main_arg2)) (ix2 p q)
        = viaSplit (m ((c : Thread nD τ).loc main_arg0)) (m ((c : Thread nD τ).loc main_arg1))
            (m ((c : Thread nD τ).loc main_arg2)) (m ((c : Thread nD τ).loc main_arg3)) ⟨200 * t.val + p.val, hr⟩ q)
    (c : Dev nD) (t : Fin cfg0.N) :
    (dats m 0 c).flushed 4 t = ((cfg0.win 4).blk t).view.read (Elt Ideal) (layerArray m c) := by
  obtain ⟨-, -, -, -, -, -, -, -, e0, e1⟩ := index_facts t
  have hN : t.val < 50 := lt_of_lt_of_eq t.isLt (show cfg0.N = 50 from N_0)
  rw [Cert.KernelIdeal.Value.flushed4, point_block]
  funext y
  rw [View.read_apply]
  obtain ⟨p, q, rfl⟩ : ∃ (p : Fin 200) (q : Fin 128), y = ix2 p q := ⟨y 0, y 1, eq_ix2 y⟩
  have hr : 200 * t.val + p.val < 10000 := by have := p.isLt; omega
  have hemb : ((cfg0.win 4).blk t).view.emb (ix2 p q) = ix2 ⟨200 * t.val + p.val, hr⟩ q := by
    funext a
    apply Fin.ext
    match a with
    | ⟨0, _⟩ => show win0_4.index t (0 : Fin 2) * 200 + 1 * p.val = 200 * t.val + p.val; rw [e0]; omega
    | ⟨1, _⟩ => show win0_4.index t (1 : Fin 2) * 128 + 1 * q.val = q.val; rw [e1]; omega
  rw [hemb]
  exact hval c t p q hr

/-- An index of the output array is in point `t`'s block iff each coordinate is in the block's range on its axis. -/
theorem mem_output_block (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v1).slice (win0_4.rect t)).set ↔ _
  rw [View.set_slice_whole, Rect.mem_set_unit]
  exact Iff.rfl

/-- The 50 blocks of 200 rows fill the output array: row `r` is in the block of point `r / 200`. -/
theorem output_covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  obtain ⟨t, ht⟩ : ∃ t : Fin cfg0.N, t.val = (i 0).val / 200 := ⟨⟨(i 0).val / 200, by omega⟩, rfl⟩
  obtain ⟨-, -, -, -, -, -, -, -, e0, e1⟩ := index_facts t
  refine ⟨t, flush0_4 t, ?_⟩
  rw [mem_output_block]
  intro a
  match a with
  | ⟨0, _⟩ =>
    show win0_4.index t (0 : Fin 2) * 200 ≤ (i 0).val ∧ (i 0).val < win0_4.index t (0 : Fin 2) * 200 + 200
    rw [e0, ht]; omega
  | ⟨1, _⟩ =>
    show win0_4.index t (1 : Fin 2) * 128 ≤ (i 1).val ∧ (i 1).val < win0_4.index t (1 : Fin 2) * 128 + 128
    rw [e1]; omega

/-- So after the run the output array is the layer's array. -/
theorem output_array
    (hval : ∀ (c : Dev nD) (t : Fin cfg0.N) (p : Fin 200) (q : Fin 128) (hr : 200 * t.val + p.val < 10000),
      blockOf (F := Ideal) (grid0.coords t) (iblk m c 2 t) (iblk m c 3 t)
          (tableOf (V m c main_arg0) (V m c main_arg2)) (ix2 p q)
        = viaSplit (m ((c : Thread nD τ).loc main_arg0)) (m ((c : Thread nD τ).loc main_arg1))
            (m ((c : Thread nD τ).loc main_arg2)) (m ((c : Thread nD τ).loc main_arg3)) ⟨200 * t.val + p.val, hr⟩ q)
    (c : Dev nD) : (dats m 0 c).arrAt 4 cfg0.N = layerArray m c :=
  (dats m 0 c).arrAt_eq_of_cover 4 (layerArray m c) (fun t _ => flushed_eq m hval c t) output_covered

/-- The run: every execution of the kernel terminates with the output array at the layer's value, computed without
    forming the adjacency with self loops, and the four arguments unchanged. -/
theorem run_viaSplit (ρ : Dev nD → PrngReg)
    (hval : ∀ (c : Dev nD) (t : Fin cfg0.N) (p : Fin 200) (q : Fin 128) (hr : 200 * t.val + p.val < 10000),
      blockOf (F := Ideal) (grid0.coords t) (iblk m c 2 t) (iblk m c 3 t)
          (tableOf (V m c main_arg0) (V m c main_arg2)) (ix2 p q)
        = viaSplit (m ((c : Thread nD τ).loc main_arg0)) (m ((c : Thread nD τ).loc main_arg1))
            (m ((c : Thread nD τ).loc main_arg2)) (m ((c : Thread nD τ).loc main_arg3)) ⟨200 * t.val + p.val, hr⟩ q) :
    θ_run defs (onTc (τ := τ) (main (F := Ideal))) ⟨m, fun _ => 0, ρ⟩ fun r => ∀ c : Dev nD,
      r.2.mem ((c : Thread nD τ).loc main_v1)
          = (fun i => viaSplit (m ((c : Thread nD τ).loc main_arg0)) (m ((c : Thread nD τ).loc main_arg1))
              (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_array m hval c), (h c).2⟩)
    (Cert.KernelIdeal.Value.run_blocks m ρ)

end BilinearPool.Kernel

end
-- ==== Proof.lean ====
/-
  A bilinear neighbourhood pooling layer: the kernel against the plain formula, over the extended reals.

  With `P = x · w` and `A = E + I` (the dense adjacency with self loops) the layer returns, for node `i` and channel `c`,
  `r(i) · ((∑ⱼ A(i,j) P(j,c))² − ∑ⱼ A(i,j)² P(j,c)²) + b(c)`, where `r(i)` is the reciprocal of
  `(∑ⱼ A(i,j))² − ∑ⱼ A(i,j)²`, taken as `0` where that number is `0`. The reference computes exactly this
  (`BilinearPool.viaLoops`; module PoolReference).

  The kernel streams 200 rows of `E` per grid point and never forms `A`: the self loop is added analytically (row `i`
  of `P`, and `(2 E(i,i) + 1) · P(i,c)²`), the squares `E(i,j)²` are replaced by `E(i,j)`, the two row sums become
  `deg + 1` and `deg + (2 E(i,i) + 1)`, and `P`, `P²` enter as a leading part plus a remainder `P − P`, `P² − P²`
  (`BilinearPool.viaSplit`; modules PoolKernelPieces, PoolKernelTable, PoolKernelValue, PoolKernelRun: the packed
  table the first grid point writes, one entry of a point's block, and the 50 blocks filling the output).

  The two agree when every entry of `E` is `0` or `1` — then `E² = E` — and `x`, `w` are real numbers, so that the
  remainders vanish and the sums can be regrouped (module PoolAlgebra). Both facts are read off the precondition
  (module PoolDomain). For an adjacency with another entry, say one entry `2`, the two formulas differ.

  The three frames are the generated ones; the idealized kernel differs from the printed one by two round trips
  through a narrower float format that are the identity on extended reals.
-/
import proofs.«101184_g33767032881163_cont_8to1_b_398_23_alg».proof.Defs
import proofs.«101184_g33767032881163_cont_8to1_b_398_23_alg».proof.Proof.Gen.Kernel
import proofs.«101184_g33767032881163_cont_8to1_b_398_23_alg».proof.Proof.Gen.Kernel.Skeleton
import proofs.«101184_g33767032881163_cont_8to1_b_398_23_alg».proof.Proof.Gen.Kernel.Launch
import proofs.«101184_g33767032881163_cont_8to1_b_398_23_alg».proof.Proof.Gen.Kernel.Points
import proofs.«101184_g33767032881163_cont_8to1_b_398_23_alg».proof.Proof.Gen.Kernel.Frame
import proofs.«101184_g33767032881163_cont_8to1_b_398_23_alg».proof.Proof.Gen.KernelIdeal
import proofs.«101184_g33767032881163_cont_8to1_b_398_23_alg».proof.Proof.Gen.KernelIdeal.Skeleton
import proofs.«101184_g33767032881163_cont_8to1_b_398_23_alg».proof.Proof.Gen.KernelIdeal.Launch
import proofs.«101184_g33767032881163_cont_8to1_b_398_23_alg».proof.Proof.Gen.KernelIdeal.Points
import proofs.«101184_g33767032881163_cont_8to1_b_398_23_alg».proof.Proof.Gen.KernelIdeal.Frame
import proofs.«101184_g33767032881163_cont_8to1_b_398_23_alg».proof.Proof.Gen.ReferenceIdeal
import proofs.«101184_g33767032881163_cont_8to1_b_398_23_alg».proof.Proof.Gen.Pre_finite_inputs
import proofs.«101184_g33767032881163_cont_8to1_b_398_23_alg».proof.Proof.Gen.KernelIdeal.Value
import proofs.«101184_g33767032881163_cont_8to1_b_398_23_alg».proof.Proof.Gen.ReferenceIdeal.Run
import proofs.«101184_g33767032881163_cont_8to1_b_398_23_alg».proof.Proof.Gen.ReferenceIdeal.Read
import proofs.«101184_g33767032881163_cont_8to1_b_398_23_alg».proof.Proof.PoolAlgebra
import proofs.«101184_g33767032881163_cont_8to1_b_398_23_alg».proof.Proof.PoolDomain
import proofs.«101184_g33767032881163_cont_8to1_b_398_23_alg».proof.Proof.PoolReference
import proofs.«101184_g33767032881163_cont_8to1_b_398_23_alg».proof.Proof.PoolKernelValue
import proofs.«101184_g33767032881163_cont_8to1_b_398_23_alg».proof.Proof.PoolKernelRun
import Idealize.ShloMosaic.Adequacy
import Idealize.ShloMosaic.Init

noncomputable section

namespace Cert.Proof

open Idealize.ShloMosaic Idealize.ShloMosaic.ValueIdx Idealize.SL.Sem

/-! ## One entry of a grid point's block, at the whole arrays -/

section KernelEntry

open Cert.KernelIdeal Cert.KernelIdeal.Gen BilinearPool BilinearPool.Kernel

/-- The grid has one axis: a point's coordinate is its number. -/
theorem coord_of_point : ∀ t : Fin cfg0.N, ((grid0.coords t) 0).val = t.val :=
  (by decide +kernel : ∀ t : Fin grid0.N, ((grid0.coords t) 0).val = t.val)

/-- Local row `p` of point `t` is row `200 t + p` of the whole arrays. -/
theorem rowOf_point (t : Fin cfg0.N) (p : Fin 200) (hr : 200 * t.val + p.val < 10000) :
    rowOf (grid0.coords t) p = ⟨200 * t.val + p.val, hr⟩ :=
  Fin.ext (by show 200 * ((grid0.coords t) 0).val + p.val = 200 * t.val + p.val; rw [coord_of_point])

/-- Entry `(p, q)` of the block point `t` computes — from its rows of the adjacency, the bias row and the table of the
    whole `x` and `w` — is the layer's value at row `200 t + p`, channel `q`. -/
theorem entry_of_point (m : (ℓ : Loc nD τ sig) → Buf (Elt Ideal) ℓ) (c : Dev nD) (t : Fin cfg0.N) (p : Fin 200) (q : Fin 128)
    (hr : 200 * t.val + p.val < 10000) :
    blockOf (F := Ideal) (grid0.coords t) (iblk m c 2 t) (iblk m c 3 t) (tableOf (V m c main_arg0) (V m c main_arg2)) (ix2 p q)
      = viaSplit (m ((c.tc : Thread nD τ).loc main_arg0)) (m ((c.tc : Thread nD τ).loc main_arg1))
          (m ((c.tc : Thread nD τ).loc main_arg2)) (m ((c.tc : Thread nD τ).loc main_arg3)) ⟨200 * t.val + p.val, hr⟩ q := by
  have hN : t.val < 50 := lt_of_lt_of_eq t.isLt (show cfg0.N = 50 from N_0)
  rw [V_main_arg0 m c, V_main_arg2 m c, ← rowOf_point t p hr]
  refine block_entry _ _ _ _ (grid0.coords t) (iblk m c 2 t) (iblk m c 3 t) (fun p' k => ?_) (fun q' => bias_block m c t 0 q') p q
  have hr' : 200 * t.val + p'.val < 10000 := by have := p'.isLt; omega
  rw [adjacency_block m c t p' k hr', V_main_arg1 m c, rowOf_point t p' hr']

end KernelEntry

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Narrowing a float and widening it back is the identity on extended reals: the two rewrites of the idealization. -/
theorem preserves : Cert.preserves_Kernel_KernelIdeal :=
  ⟨IdealRules.truncf_extf.statement _ _ _, IdealRules.truncf_extf.statement _ _ _⟩

/-- Both programs end with the layer's value in every entry: the kernel with `viaSplit`, the reference with `viaLoops`,
    of arguments that agree; on an adjacency of zeros and ones and real `x`, `w` these are one number. -/
theorem algebraic : Cert.algebraic_KernelIdeal_ReferenceIdeal := by
  intro m ρ m' ρ' hpre hagree
  refine ⟨_, BilinearPool.Kernel.run_viaSplit m ρ (fun c t p q hr => entry_of_point m c t p q hr), ?_⟩
  refine (θ_run Cert.ReferenceIdeal.defs _ _).mono (fun _ h c => ⟨(h c).1.trans ?_, (h c).2⟩)
    (BilinearPool.Reference.run_viaLoops m' ρ')
  rw [(hagree c).1, (hagree c).2.1, (hagree c).2.2.1, (hagree c).2.2.2]
  obtain ⟨hx, hw, hE⟩ := BilinearPool.Domain.domain_of_pre _ _ _ _ (hpre c)
  funext i
  exact (BilinearPool.viaSplit_eq_viaLoops _ _ _ _ hx hw hE (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
